-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v48_0)) (v2 : (c : Dev Cert.KernelIdeal.nD) → Buf (Elt Ideal) ((c.tc : Thread Cert.KernelIdeal.nD Cert.KernelIdeal.τ).loc Cert.KernelIdeal.main_v48_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v48_0) = v1 c
          ∧ r.2.mem ((c.tc : Thread Cert.KernelIdeal.nD Cert.KernelIdeal.τ).loc Cert.KernelIdeal.main_v48_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x500000 : Shape := ⟨2, ![2, 500000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S512x512 .f32) (main_arg9 : FVec F S512 .f32) (main_arg10 : FVec F S512x512 .f32) (main_arg11 : FVec F S512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S512x512 .f32) (main_arg6 : FVec F S512 .f32) (main_arg7 : FVec F S512x512 .f32) (main_arg8 : FVec F S512x512 .f32) (main_arg9 : FVec F S512 .f32) (main_arg10 : FVec F S512x512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x512 .f32) (main_arg1 : IVec S2x500000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512x512 .f32) (main_arg9 : FVec F S512 .f32) (main_arg10 : FVec F S512x512 .f32) (main_arg11 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_v13 main_v16
-- ==== Kernel.lean ====
abbrev S50000x512 : Shape := ⟨2, ![50000, 512]⟩
abbrev S2x500000 : Shape := ⟨2, ![2, 500000]⟩
abbrev S512x512 : Shape := ⟨2, ![512, 512]⟩
abbrev S512 : Shape := ⟨1, ![512]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x512 : Shape := ⟨2, ![500000, 512]⟩
abbrev S50000 : Shape := ⟨1, ![50000]⟩
abbrev S50000x1 : Shape := ⟨2, ![50000, 1]⟩
abbrev S1x512 : Shape := ⟨2, ![1, 512]⟩
abbrev S1000x512 : Shape := ⟨2, ![1000, 512]⟩

abbrev nBuf : Space → Nat
  | .hbm => 74
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S2x500000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x512, .f32⟩
  | .hbm, ⟨25, _⟩ => ⟨S_, .f32⟩
  | .hbm, ⟨26, _⟩ => ⟨S50000x512, .f32⟩
  | .hbm, ⟨27, _⟩ => ⟨S500000x1, .i32⟩
  | .hbm, ⟨28, _⟩ => ⟨S50000x512, .f32⟩
  | .hbm, ⟨29, _⟩ => ⟨S_, .f32⟩
  | .hbm, ⟨30, _⟩ => ⟨S500000, .f32⟩
  | .hbm, ⟨31, _⟩ => ⟨S_, .f32⟩
  | .hbm, ⟨32, _⟩ => ⟨S50000, .f32⟩
  | .hbm, ⟨33, _⟩ => ⟨S500000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x512, .f32⟩
  | .hbm, ⟨40, _⟩ => ⟨S50000x512, .f32⟩
  | .hbm, ⟨41, _⟩ => ⟨S1x512, .f32⟩
  | .hbm, ⟨42, _⟩ => ⟨S50000x512, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x512, .f32⟩
  | .hbm, ⟨52, _⟩ => ⟨S_, .f32⟩
  | .hbm, ⟨53, _⟩ => ⟨S50000x512, .f32⟩
  | .hbm, ⟨54, _⟩ => ⟨S500000x1, .i32⟩
  | .hbm, ⟨55, _⟩ => ⟨S50000x512, .f32⟩
  | .hbm, ⟨56, _⟩ => ⟨S_, .f32⟩
  | .hbm, ⟨57, _⟩ => ⟨S500000, .f32⟩
  | .hbm, ⟨58, _⟩ => ⟨S_, .f32⟩
  | .hbm, ⟨59, _⟩ => ⟨S50000, .f32⟩
  | .hbm, ⟨60, _⟩ => ⟨S500000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x512, .f32⟩
  | .hbm, ⟨67, _⟩ => ⟨S50000x512, .f32⟩
  | .hbm, ⟨68, _⟩ => ⟨S1x512, .f32⟩
  | .hbm, ⟨69, _⟩ => ⟨S50000x512, .f32⟩
  | .hbm, ⟨70, _⟩ => ⟨S1x512, .f32⟩
  | .hbm, ⟨71, _⟩ => ⟨S1x512, .f32⟩
  | .hbm, ⟨72, _⟩ => ⟨S50000x512, .f32⟩
  | .hbm, ⟨73, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1000x512, .f32⟩
  | .local _ .vmem, ⟨20, _⟩ => ⟨S512x512, .f32⟩
  | .local _ .vmem, ⟨21, _⟩ => ⟨S512x512, .f32⟩
  | .local _ .vmem, ⟨22, _⟩ => ⟨S1x512, .f32⟩
  | .local _ .vmem, ⟨23, _⟩ => ⟨S1x512, .f32⟩
  | .local _ .vmem, ⟨24, _⟩ => ⟨S1000x512, .f32⟩
  | .local _ .vmem, ⟨25, _⟩ => ⟨S1000x512, .f32⟩
  | .local _ .vmem, ⟨26, _⟩ => ⟨S1000x512, .f32⟩
  | .local _ .vmem, ⟨27, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1
  scatter_S50000_S500000x1_S500000_n_0_0_1_wf : ScatterDims.WF S50000 S500000x1 S500000 [] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x512.size a ≤ S50000x512.size a
  hwx0_5 : ∀ i : grid0.Coords, EltTy.bits .f32 = 32 ∨ (Rect.block (s := S50000x512) S1000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x512.size a ≤ S50000x512.size a
  hwx1_5 : ∀ i : grid1.Coords, EltTy.bits .f32 = 32 ∨ (Rect.block (s := S50000x512) S1000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x512.size a ≤ S50000x512.size a
  hwx2_5 : ∀ i : grid2.Coords, EltTy.bits .f32 = 32 ∨ (Rect.block (s := S50000x512) S1000x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x512.size a ≤ S50000x512.size a
  hwx2_6 : ∀ i : grid2.Coords, EltTy.bits .f32 = 32 ∨ (Rect.block (s := S50000x512) S1000x512.size (cc2_transform_6 i) (hinb2_6 i)).WholeWords (EltTy.packing .f32)

variable [Facts₀]

def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v22) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48_0) S1000x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v48_1) S1000x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x500000 : Shape := ⟨2, ![2, 500000]⟩
abbrev S512x512 : Shape := ⟨2, ![512, 512]⟩
abbrev S512 : Shape := ⟨1, ![512]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x512 : Shape := ⟨2, ![500000, 512]⟩
abbrev S50000 : Shape := ⟨1, ![50000]⟩
abbrev S50000x1 : Shape := ⟨2, ![50000, 1]⟩
abbrev S1x512 : Shape := ⟨2, ![1, 512]⟩

abbrev nBuf : Space → Nat
  | .hbm => 95
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x500000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x512, .f32⟩
  | .hbm, ⟨25, _⟩ => ⟨S_, .f32⟩
  | .hbm, ⟨26, _⟩ => ⟨S50000x512, .f32⟩
  | .hbm, ⟨27, _⟩ => ⟨S500000x1, .i32⟩
  | .hbm, ⟨28, _⟩ => ⟨S50000x512, .f32⟩
  | .hbm, ⟨29, _⟩ => ⟨S_, .f32⟩
  | .hbm, ⟨30, _⟩ => ⟨S500000, .f32⟩
  | .hbm, ⟨31, _⟩ => ⟨S_, .f32⟩
  | .hbm, ⟨32, _⟩ => ⟨S50000, .f32⟩
  | .hbm, ⟨33, _⟩ => ⟨S500000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x512, .f32⟩
  | .hbm, ⟨40, _⟩ => ⟨S50000x512, .f32⟩
  | .hbm, ⟨41, _⟩ => ⟨S50000x512, .f32⟩
  | .hbm, ⟨42, _⟩ => ⟨S1x512, .f32⟩
  | .hbm, ⟨43, _⟩ => ⟨S50000x512, .f32⟩
  | .hbm, ⟨44, _⟩ => ⟨S50000x512, .f32⟩
  | .hbm, ⟨45, _⟩ => ⟨S50000x512, .f32⟩
  | .hbm, ⟨46, _⟩ => ⟨S50000x512, .f32⟩
  | .hbm, ⟨47, _⟩ => ⟨S_, .f32⟩
  | .hbm, ⟨48, _⟩ => ⟨S50000x512, .f32⟩
  | .hbm, ⟨49, _⟩ => ⟨S50000x512, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x512, .f32⟩
  | .hbm, ⟨59, _⟩ => ⟨S_, .f32⟩
  | .hbm, ⟨60, _⟩ => ⟨S50000x512, .f32⟩
  | .hbm, ⟨61, _⟩ => ⟨S500000x1, .i32⟩
  | .hbm, ⟨62, _⟩ => ⟨S50000x512, .f32⟩
  | .hbm, ⟨63, _⟩ => ⟨S_, .f32⟩
  | .hbm, ⟨64, _⟩ => ⟨S500000, .f32⟩
  | .hbm, ⟨65, _⟩ => ⟨S_, .f32⟩
  | .hbm, ⟨66, _⟩ => ⟨S50000, .f32⟩
  | .hbm, ⟨67, _⟩ => ⟨S500000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x512, .f32⟩
  | .hbm, ⟨74, _⟩ => ⟨S50000x512, .f32⟩
  | .hbm, ⟨75, _⟩ => ⟨S50000x512, .f32⟩
  | .hbm, ⟨76, _⟩ => ⟨S1x512, .f32⟩
  | .hbm, ⟨77, _⟩ => ⟨S50000x512, .f32⟩
  | .hbm, ⟨78, _⟩ => ⟨S50000x512, .f32⟩
  | .hbm, ⟨79, _⟩ => ⟨S50000x512, .f32⟩
  | .hbm, ⟨80, _⟩ => ⟨S50000x512, .f32⟩
  | .hbm, ⟨81, _⟩ => ⟨S50000x512, .f32⟩
  | .hbm, ⟨82, _⟩ => ⟨S1x512, .f32⟩
  | .hbm, ⟨83, _⟩ => ⟨S50000x512, .f32⟩
  | .hbm, ⟨84, _⟩ => ⟨S50000x512, .f32⟩
  | .hbm, ⟨85, _⟩ => ⟨S_, .f32⟩
  | .hbm, ⟨86, _⟩ => ⟨S50000x512, .f32⟩
  | .hbm, ⟨87, _⟩ => ⟨S50000x512, .f32⟩
  | .hbm, ⟨88, _⟩ => ⟨S50000x512, .f32⟩
  | .hbm, ⟨89, _⟩ => ⟨S1x512, .f32⟩
  | .hbm, ⟨90, _⟩ => ⟨S50000x512, .f32⟩
  | .hbm, ⟨91, _⟩ => ⟨S50000x512, .f32⟩
  | .hbm, ⟨92, _⟩ => ⟨S_, .f32⟩
  | .hbm, ⟨93, _⟩ => ⟨S50000x512, .f32⟩
  | .hbm, ⟨94, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1
  scatter_S50000_S500000x1_S500000_n_0_0_1_wf : ScatterDims.WF S50000 S500000x1 S500000 [] [0] [0] 1
  dot_S50000x512_S512x512_S50000x512_1_0_0_1_n_n_wf : DotDims.WF S50000x512 S512x512 S50000x512 [1] [0] [0] [1] [] []

variable [Facts₀]

def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The idealized kernel program's run, with its three results named.

  The program is three kernel regions among stretches of host operations. The contents of every buffer at each
  boundary form a fold from the launch memory: `W1` after the first stretch, `W2` after region 0 (its output array
  at what the region's points wrote back, everything else as entered), and so on to `W6` at the return. Every weakly
  fair execution terminates with every buffer at `W6`; kept here are the three result buffers at `W6` beside the
  unchanged arguments. (The same launch over the same segments as the frame's: only the kept part of the post differs.)
-/
import proofs.«101803_j29712583754274_1_alg».proof.Proof.Patched.KernelIdealFrame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents `W6` and the argument arrays as launched. -/
theorem run_results : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_v48_0) = W6 m ρ c (Proc.devRef .tc main_v48_0)
      ∧ r.2.mem ((c.tc : Thread nD τ).loc main_v48_1) = W6 m ρ c (Proc.devRef .tc main_v48_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       h c _ (mem_uc main_v48_0 (by decide)),
       h c _ (mem_uc main_v48_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.Sage.KernelRun

end
-- ==== Proof.Spec.lean ====
/-
  The mathematics both programs compute, stated once over the literal shapes.

  A graph layer here is: aggregate each node's incoming neighbour rows by their mean (`agg`: gather the
  source rows, add them up per destination node, divide by the in-degree clamped below at one), then
  combine the aggregated row and the node's own row through two weight matrices and a bias
  (`combine`), possibly followed by a clamp at zero (`clampZero`). A head is one product with a weight
  matrix plus a bias (`affine`).

  `agg` is carried as ONE function of the feature array and the two endpoint vectors: both programs
  apply the very same host operations, so nothing about gather or scatter-add is ever needed.
-/
import proofs.«101803_j29712583754274_1_alg».proof.Proof.Gen.KernelIdeal
import Idealize.ShloMosaic.PureOps.Ideal
import Idealize.ShloMosaic.Lib.ValueIdx
import Idealize.ShloMosaic.Lib.Pipeline.Value

noncomputable section

namespace Cert.Sage

open Idealize.ShloMosaic Cert.KernelIdeal Cert.KernelIdeal.Facts₀

/-- Row `0` of the edge table, flattened: the source node of every edge. -/
def srcOf (E : IVec S2x500000 32) : IVec S500000 32 :=
  shapeCast _ (extractStridedSlice S1x500000 ![0, 0] E slices_S2x500000_S1x500000_0_0) shapeCasts_S1x500000_S500000

/-- Row `1` of the edge table, flattened: the destination node of every edge. -/
def dstOf (E : IVec S2x500000 32) : IVec S500000 32 :=
  shapeCast _ (extractStridedSlice S1x500000 ![1, 0] E slices_S2x500000_S1x500000_1_0) shapeCasts_S1x500000_S500000

/-- Mean aggregation: for every node, the sum of `X`'s rows at the sources `s` of the edges whose destination
    `d` is that node (a negative source index wraps by the node count first), divided by
    `max (number of such edges) 1`. -/
def agg (X : FVec Ideal S50000x512 .f32) (s d : IVec S500000 32) : FVec Ideal S50000x512 .f32 :=
  Host.divf (Host.scatterAdd scatter_S50000x512_S500000x1_S500000x512_1_0_0_1 (broadcastInDim S50000x512 ![] bcast_S_S50000x512 (constant (F := Ideal) S_ .f32 0x00000000#32)) (broadcastInDim S500000x1 ![0] bcast_S500000_S500000x1_0 d) (Host.gather gather_S50000x512_S500000x1_S500000x512_1_0_n_n_0_1_1512 X (broadcastInDim S500000x1 ![0] bcast_S500000_S500000x1_0 (select (cmpi .slt s (broadcastInDim S500000 ![] bcast_S_S500000 (constantI S_ 32 0#32))) (addi s (broadcastInDim S500000 ![] bcast_S_S500000 (constantI S_ 32 50000#32))) s)))) (broadcastInDim S50000x512 ![0, 1] bcast_S50000x1_S50000x512_0_1 (broadcastInDim S50000x1 ![0] bcast_S50000_S50000x1_0 (maximumf (Host.scatterAdd scatter_S50000_S500000x1_S500000_n_0_0_1 (broadcastInDim S50000 ![] bcast_S_S50000 (constant (F := Ideal) S_ .f32 0x00000000#32)) (broadcastInDim S500000x1 ![0] bcast_S500000_S500000x1_0 d) (broadcastInDim S500000 ![] bcast_S_S500000 (constant (F := Ideal) S_ .f32 0x3F800000#32))) (broadcastInDim S50000 ![] bcast_S_S50000 (constant (F := Ideal) S_ .f32 0x3F800000#32)))))

/-- Entry `(r, k)` of a node-feature array, `r` the row of `i`. -/
abbrev rowAt (i : S50000x512.Idx) (k : Fin 512) : S50000x512.Idx := fun a => match a with
  | ⟨0, _⟩ => ⟨(i 0).val, (i 0).isLt⟩
  | ⟨1, _⟩ => ⟨k.val, k.isLt⟩

/-- Entry `(k, j)` of a weight matrix, `j` the column of `i`. -/
abbrev colAt (i : S50000x512.Idx) (k : Fin 512) : S512x512.Idx := fun a => match a with
  | ⟨0, _⟩ => ⟨k.val, k.isLt⟩
  | ⟨1, _⟩ => ⟨(i 1).val, (i 1).isLt⟩

/-- Entry `j` of a bias vector, `j` the column of `i`. -/
abbrev biasAt (i : S50000x512.Idx) : S512.Idx := fun a => match a with
  | ⟨0, _⟩ => ⟨(i 1).val, (i 1).isLt⟩

/-- Entry `(0, j)` of a bias laid out as one row, `j` the column of `i`. -/
abbrev biasRowAt (i : S50000x512.Idx) : S1x512.Idx := fun a => match a with
  | ⟨0, _⟩ => ⟨0, Nat.one_pos⟩
  | ⟨1, _⟩ => ⟨(i 1).val, (i 1).isLt⟩

/-- `(A · W) i`: row of `A` against column of `W`. -/
def rowCol (A : FVec Ideal S50000x512 .f32) (W : FVec Ideal S512x512 .f32) (i : S50000x512.Idx) : EReal :=
  ∑ k : Fin 512, A (rowAt i k) * W (colAt i k)

/-- `A · WA + B · WB + b`, the two products added first. -/
def combine (A B : FVec Ideal S50000x512 .f32) (WA WB : FVec Ideal S512x512 .f32) (b : FVec Ideal S512 .f32) :
    FVec Ideal S50000x512 .f32 :=
  fun i => (rowCol A WA i + rowCol B WB i) + b (biasAt i)

/-- `A · W + b`. -/
def affine (A : FVec Ideal S50000x512 .f32) (W : FVec Ideal S512x512 .f32) (b : FVec Ideal S512 .f32) :
    FVec Ideal S50000x512 .f32 :=
  fun i => rowCol A W i + b (biasAt i)

/-- `A · WA + B · WB + b` with the bias given as one row `[1, 512]` (how a kernel receives it). -/
def combineRow (A B : FVec Ideal S50000x512 .f32) (WA WB : FVec Ideal S512x512 .f32) (b2 : FVec Ideal S1x512 .f32) :
    FVec Ideal S50000x512 .f32 :=
  fun i => (rowCol A WA i + rowCol B WB i) + b2 (biasRowAt i)

/-- `A · W + b` with the bias given as one row. -/
def affineRow (A : FVec Ideal S50000x512 .f32) (W : FVec Ideal S512x512 .f32) (b2 : FVec Ideal S1x512 .f32) :
    FVec Ideal S50000x512 .f32 :=
  fun i => rowCol A W i + b2 (biasRowAt i)

/-- A bias vector laid out as one row, read at `(0, j)`, is the vector at `j`. -/
theorem asRow_at (b : FVec Ideal S512 .f32) (i : S50000x512.Idx) :
    shapeCast S1x512 b shapeCasts_S512_S1x512 (biasRowAt i) = b (biasAt i) := by
  refine (shapeCast_addUnit_apply ![512] b shapeCasts_S512_S1x512 (biasRowAt i)).trans ?_
  refine congrArg b (funext fun a => ?_)
  match a with
  | ⟨0, _⟩ => rfl

theorem combineRow_asRow (A B : FVec Ideal S50000x512 .f32) (WA WB : FVec Ideal S512x512 .f32) (b : FVec Ideal S512 .f32) :
    combineRow A B WA WB (shapeCast S1x512 b shapeCasts_S512_S1x512) = combine A B WA WB b :=
  funext fun i => by unfold combineRow combine; rw [asRow_at]

theorem affineRow_asRow (A : FVec Ideal S50000x512 .f32) (W : FVec Ideal S512x512 .f32) (b : FVec Ideal S512 .f32) :
    affineRow A W (shapeCast S1x512 b shapeCasts_S512_S1x512) = affine A W b :=
  funext fun i => by unfold affineRow affine; rw [asRow_at]

/-- The clamp at zero, entry by entry. -/
def clampZero (X : FVec Ideal S50000x512 .f32) : FVec Ideal S50000x512 .f32 :=
  fun i => max (X i) (Ideal.ofBits .f32 0x00000000#32)

/-- On the extended reals a sum of three may be regrouped and reordered freely: `(a + c) + b = (a + b) + c`.
    This is the one law that joins the two programs (no finiteness is needed for it). -/
theorem add_swap (a b c : EReal) : (a + c) + b = (a + b) + c := add_right_comm a c b

/-- The first layer's output: clamp of the combined aggregate and own rows. -/
def layer1 (x : FVec Ideal S50000x512 .f32) (E : IVec S2x500000 32) (Wl0 Wr0 : FVec Ideal S512x512 .f32)
    (bl0 : FVec Ideal S512 .f32) : FVec Ideal S50000x512 .f32 :=
  clampZero (combine (agg x (srcOf E) (dstOf E)) x Wl0 Wr0 bl0)

/-- The second layer's output (no clamp). -/
def layer2 (h : FVec Ideal S50000x512 .f32) (E : IVec S2x500000 32) (Wl1 Wr1 : FVec Ideal S512x512 .f32)
    (bl1 : FVec Ideal S512 .f32) : FVec Ideal S50000x512 .f32 :=
  combine (agg h (srcOf E) (dstOf E)) h Wl1 Wr1 bl1

/-- A head: clamp of one affine map. -/
def headOf (h : FVec Ideal S50000x512 .f32) (W : FVec Ideal S512x512 .f32) (b : FVec Ideal S512 .f32) :
    FVec Ideal S50000x512 .f32 :=
  clampZero (affine h W b)

end Cert.Sage

end
-- ==== Proof.Tile.lean ====
/-
  One 1000-row tile, read at an entry.

  Inside a kernel body a tile `x` of 1000 rows is multiplied by a whole 512 x 512 weight matrix `w` on the
  matrix unit, accumulating into zero; on the extended reals (where narrowing a float format changes nothing)
  entry `(p, q)` of the product is `∑ k, x (p, k) * w (k, q)`. The bias arrives as one row `[1, 512]` and is
  repeated down the tile's rows, so its entry `(p, q)` is the bias at `(0, q)`.
-/
import proofs.«101803_j29712583754274_1_alg».proof.Proof.Gen.KernelIdeal
import Idealize.ShloMosaic.PureOps.Ideal.Laws
import Idealize.ShloMosaic.Lib.ValueIdx
import Idealize.ShloMosaic.Lib.Pipeline.Value

noncomputable section

namespace Cert.Sage.Tile

open Idealize.ShloMosaic Cert.KernelIdeal Cert.KernelIdeal.Facts₀

/-- Entry `(p, k)` of a tile, `p` the row of `j`. -/
abbrev tRow (j : S1000x512.Idx) (k : Fin 512) : S1000x512.Idx := fun a => match a with
  | ⟨0, _⟩ => ⟨(j 0).val, (j 0).isLt⟩
  | ⟨1, _⟩ => ⟨k.val, k.isLt⟩

/-- Entry `(k, q)` of a weight matrix, `q` the column of `j`. -/
abbrev tCol (j : S1000x512.Idx) (k : Fin 512) : S512x512.Idx := fun a => match a with
  | ⟨0, _⟩ => ⟨k.val, k.isLt⟩
  | ⟨1, _⟩ => ⟨(j 1).val, (j 1).isLt⟩

/-- Entry `(0, q)` of a bias row, `q` the column of `j`. -/
abbrev tBias (j : S1000x512.Idx) : S1x512.Idx := fun a => match a with
  | ⟨0, _⟩ => ⟨0, Nat.one_pos⟩
  | ⟨1, _⟩ => ⟨(j 1).val, (j 1).isLt⟩

local notation "D" => dot_S1000x512_S512x512_S1000x512_1_0_0_1_n_n

theorem lhs0 (j : S1000x512.Idx) (q : (D).contr.Idx) : ((D).lhsIdx j q 0).val = (j 0).val := by
  unfold DotDims.lhsIdx
  rw [dif_neg (show ¬(0 : Fin S1000x512.rank) ∈ (D).lhsBatch by decide), dif_pos (show (0 : Fin S1000x512.rank) ∈ (D).lhsNonContracting by decide)]
  rfl
theorem lhs1 (j : S1000x512.Idx) (q : (D).contr.Idx) : ((D).lhsIdx j q 1).val = (q ⟨0, by decide⟩).val :=
  (D).lhsIdx_val_of_single rfl j q
theorem rhs0 (j : S1000x512.Idx) (q : (D).contr.Idx) : ((D).rhsIdx j q 0).val = (q ⟨0, by decide⟩).val :=
  (D).rhsIdx_val_of_single rfl j q
theorem rhs1 (j : S1000x512.Idx) (q : (D).contr.Idx) : ((D).rhsIdx j q 1).val = (j 1).val := by
  unfold DotDims.rhsIdx
  rw [dif_neg (show ¬(1 : Fin S512x512.rank) ∈ (D).rhsBatch by decide), dif_pos (show (1 : Fin S512x512.rank) ∈ (D).rhsNonContracting by decide)]
  rfl

/-- The matrix unit's product of a tile and a weight matrix into a zero accumulator, at an entry: the sum over the
    contracted axis of row entry times column entry. The operands' narrowing to bf16 is the identity here. -/
theorem matmul_at (x : FVec Ideal S1000x512 .f32) (w : FVec Ideal S512x512 .f32) (j : S1000x512.Idx) :
    matmul (F := Ideal) (D) none (truncf .bf16 x bitsLt_bf16_f32) (truncf .bf16 w bitsLt_bf16_f32) (constant S1000x512 .f32 0x00000000#32) j
      = ∑ k : Fin 512, x (tRow j k) * w (tCol j k) := by
  refine (Ideal.matmul_constant_zero_apply (D) none (truncf .bf16 x bitsLt_bf16_f32) (truncf .bf16 w bitsLt_bf16_f32) j).trans ?_
  rw [← Equiv.sum_comp (ValueIdx.contrEquiv1 (D) 512 rfl rfl).symm]
  refine Finset.sum_congr rfl fun k _ => ?_
  have hk := ValueIdx.contrEquiv1_symm_val (D) 512 rfl rfl k
  have el : (D).lhsIdx j ((ValueIdx.contrEquiv1 (D) 512 rfl rfl).symm k) = tRow j k := funext fun a => Fin.ext (by
    match a with
    | ⟨0, _⟩ => exact lhs0 _ _
    | ⟨1, _⟩ => exact (lhs1 _ _).trans hk)
  have er : (D).rhsIdx j ((ValueIdx.contrEquiv1 (D) 512 rfl rfl).symm k) = tCol j k := funext fun a => Fin.ext (by
    match a with
    | ⟨0, _⟩ => exact (rhs0 _ _).trans hk
    | ⟨1, _⟩ => exact rhs1 _ _)
  rw [el, er]
  rfl

/-- The bias row repeated down the tile, at an entry. -/
theorem bias_at (b : FVec Ideal S1x512 .f32) (j : S1000x512.Idx) :
    broadcastTo S1000x512 (shapeCast S1x512 b shapeCasts_S1x512_S1x512) broadcasts_S1x512_S1000x512 j = b (tBias j) := by
  rw [shapeCast_self]
  exact broadcastTo_apply b broadcasts_S1x512_S1000x512 j (tBias j) (fun a => by
    match a with
    | ⟨0, _⟩ => rfl
    | ⟨1, _⟩ => rfl)

end Cert.Sage.Tile

end
-- ==== Proof.Region0.lean ====
/-
  Region 0: what the first layer's kernel leaves in its output array.

  The grid has 50 points; point `t` reads rows `1000 t … 1000 t + 999` of the aggregated array and of the node's own
  array, both whole weight matrices and the bias row, and writes rows `1000 t … 1000 t + 999` of the output. Entry
  `(p, q)` of what it writes is `∑ k, a (p, k) · wa (k, q) + ∑ k, b (p, k) · wb (k, q) + bias (0, q)`, clamped at zero, with `a`, `b` the
  two row tiles: that is entry `(1000 t + p, q)` of one function of the whole arrays. The 50 blocks tile the array,
  so after the region the array IS that function of the arrays the region was entered with.
-/
import proofs.«101803_j29712583754274_1_alg».proof.Proof.Patched.KernelIdealFrame
import proofs.«101803_j29712583754274_1_alg».proof.Proof.Spec
import proofs.«101803_j29712583754274_1_alg».proof.Proof.Tile
import Idealize.ShloMosaic.Lib.Pipeline.Value

set_option maxRecDepth 16384

noncomputable section

namespace Cert.Sage.Region0

open Idealize.ShloMosaic Idealize.ShloMosaic.TcCoe Idealize.SL.Sem
open Idealize.ShloMosaic.Pipeline (Dat Cfg Window)
open Cert.KernelIdeal Cert.KernelIdeal.Gen Cert.KernelIdeal.GenP Cert.Sage Cert.Sage.Tile

theorem hz : (![0, 0] : Fin 2 → Nat) = fun _ => 0 := funext fun a => by fin_cases a <;> rfl

/-- The body's stored value at an entry of the tile. -/
theorem pay_at (x0 x1 : FVec Ideal S1000x512 .f32) (x2 x3 : FVec Ideal S512x512 .f32) (x4 : FVec Ideal S1x512 .f32)
    (j : S1000x512.Idx) :
    k0_pay1 (F := Ideal) x0 x1 x2 x3 x4 j
      = max ((∑ k : Fin 512, x0 (tRow j k) * x2 (tCol j k) + ∑ k : Fin 512, x1 (tRow j k) * x3 (tCol j k)) + x4 (tBias j)) (Ideal.ofBits .f32 0x00000000#32) := by
  have e0 := (matmul_at (shapeCast S1000x512 x0 Facts₀.shapeCasts_S1000x512_S1000x512) x2 j).trans (by rw [shapeCast_self])
  have e1 := matmul_at x1 x3 j
  have e2 := bias_at x4 j
  exact congrArg₂ max (congrArg₂ (· + ·) (congrArg₂ (· + ·) e0 e1) e2) rfl

/-- The same entry when the tiles are the matching rows of whole arrays `A`, `B`, the weights and the bias row the whole
    ones: it is the whole-array function's entry `i`. -/
theorem block_entry (A B : FVec Ideal S50000x512 .f32) (WA WB : FVec Ideal S512x512 .f32) (b2 : FVec Ideal S1x512 .f32)
    (x0 x1 : FVec Ideal S1000x512 .f32) (x2 x3 : FVec Ideal S512x512 .f32) (x4 : FVec Ideal S1x512 .f32)
    (j : S1000x512.Idx) (i : S50000x512.Idx)
    (h0 : ∀ k : Fin 512, x0 (tRow j k) = A (rowAt i k)) (h1 : ∀ k : Fin 512, x1 (tRow j k) = B (rowAt i k))
    (h2 : ∀ k : Fin 512, x2 (tCol j k) = WA (colAt i k)) (h3 : ∀ k : Fin 512, x3 (tCol j k) = WB (colAt i k))
    (h4 : x4 (tBias j) = b2 (biasRowAt i)) :
    k0_pay1 (F := Ideal) x0 x1 x2 x3 x4 j = clampZero (combineRow A B WA WB b2) i := by
  rw [pay_at]
  unfold clampZero combineRow rowCol
  simp only [h0, h1, h2, h3, h4]

variable (V : (c : Dev nD) → (b : Ref sig .tc) → Buf (Elt Ideal) ((c : Thread nD τ).loc b))

/-- The index maps over the grid: the row-tiled windows sit at block `(t, 0)`, the whole-array windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the whole-array function. -/
theorem flushed_eq (c : Dev nD) (t : Fin cfg0.N) :
    (dat0 V c).flushed 5 t = ((cfg0.win 5).blk t).view.read (Elt Ideal)
      (clampZero (combineRow (V c main_v22 : FVec Ideal S50000x512 .f32) (V c main_arg0 : FVec Ideal S50000x512 .f32) (V c main_arg2 : FVec Ideal S512x512 .f32) (V c main_arg4 : FVec Ideal S512x512 .f32) (V c main_v23 : FVec Ideal S1x512 .f32))) := by
  show (cfg0.win 5).cut (grid0.coords t) ((dat0 V c).after 5 t) = _
  rw [after0_5]
  unfold out0_5
  rw [View.canon_unit_zero hz]
  simp only [View.ld_unit_zero (S := S1000x512) hz, View.ld_unit_zero (S := S512x512) hz, View.ld_unit_zero (S := S1x512) hz]
  obtain ⟨a0, a1, b0, b1, c0, c1, d0, d1, f0, f1, g0, g1⟩ := idx_facts t
  funext j
  have hj0 : (j 0).val < 1000 := (j 0).isLt
  have hj1 : (j 1).val < 512 := (j 1).isLt
  have hA : ∀ k : Fin 512, ((cfg0.win 0).blk t).view.emb (tRow j k) = rowAt (((cfg0.win 5).blk t).view.emb j) k := fun k => by
    funext a; apply Fin.ext
    match a with
    | ⟨0, _⟩ => show win0_0.index t (0 : Fin 2) * 1000 + 1 * (j 0).val = win0_5.index t (0 : Fin 2) * 1000 + 1 * (j 0).val; omega
    | ⟨1, _⟩ => show win0_0.index t (1 : Fin 2) * 512 + 1 * k.val = k.val; omega
  have hB : ∀ k : Fin 512, ((cfg0.win 1).blk t).view.emb (tRow j k) = rowAt (((cfg0.win 5).blk t).view.emb j) k := fun k => by
    funext a; apply Fin.ext
    match a with
    | ⟨0, _⟩ => show win0_1.index t (0 : Fin 2) * 1000 + 1 * (j 0).val = win0_5.index t (0 : Fin 2) * 1000 + 1 * (j 0).val; omega
    | ⟨1, _⟩ => show win0_1.index t (1 : Fin 2) * 512 + 1 * k.val = k.val; omega
  have hWA : ∀ k : Fin 512, ((cfg0.win 2).blk t).view.emb (tCol j k) = colAt (((cfg0.win 5).blk t).view.emb j) k := fun k => by
    funext a; apply Fin.ext
    match a with
    | ⟨0, _⟩ => show win0_2.index t (0 : Fin 2) * 512 + 1 * k.val = k.val; omega
    | ⟨1, _⟩ => show win0_2.index t (1 : Fin 2) * 512 + 1 * (j 1).val = win0_5.index t (1 : Fin 2) * 512 + 1 * (j 1).val; omega
  have hWB : ∀ k : Fin 512, ((cfg0.win 3).blk t).view.emb (tCol j k) = colAt (((cfg0.win 5).blk t).view.emb j) k := fun k => by
    funext a; apply Fin.ext
    match a with
    | ⟨0, _⟩ => show win0_3.index t (0 : Fin 2) * 512 + 1 * k.val = k.val; omega
    | ⟨1, _⟩ => show win0_3.index t (1 : Fin 2) * 512 + 1 * (j 1).val = win0_5.index t (1 : Fin 2) * 512 + 1 * (j 1).val; omega
  have hb : ((cfg0.win 4).blk t).view.emb (tBias j) = biasRowAt (((cfg0.win 5).blk t).view.emb j) := by
    funext a; apply Fin.ext
    match a with
    | ⟨0, _⟩ => show win0_4.index t (0 : Fin 2) * 1 + 1 * 0 = 0; omega
    | ⟨1, _⟩ => show win0_4.index t (1 : Fin 2) * 512 + 1 * (j 1).val = win0_5.index t (1 : Fin 2) * 512 + 1 * (j 1).val; omega
  exact block_entry (V c main_v22 : FVec Ideal S50000x512 .f32) (V c main_arg0 : FVec Ideal S50000x512 .f32) (V c main_arg2 : FVec Ideal S512x512 .f32) (V c main_arg4 : FVec Ideal S512x512 .f32) (V c main_v23 : FVec Ideal S1x512 .f32)
    (iblk0 V c 0 t) (iblk0 V c 1 t) (iblk0 V c 2 t) (iblk0 V c 3 t) (iblk0 V c 4 t) j (((cfg0.win 5).blk t).view.emb j)
    (fun k => congrArg (V c main_v22 : FVec Ideal S50000x512 .f32) (hA k)) (fun k => congrArg (V c main_arg0 : FVec Ideal S50000x512 .f32) (hB k))
    (fun k => congrArg (V c main_arg2 : FVec Ideal S512x512 .f32) (hWA k)) (fun k => congrArg (V c main_arg4 : FVec Ideal S512x512 .f32) (hWB k)) (congrArg (V c main_v23 : FVec Ideal S1x512 .f32) hb)

/-- An index of the output array is in point `t`'s block iff each coordinate is in the block's range on its axis. -/
theorem mem_blk (t : Fin cfg0.N) (i : S50000x512.Idx) :
    i ∈ ((cfg0.win 5).blk t).view.set ↔ ∀ a : Fin 2, win0_5.index t a * S1000x512.size a ≤ (i a).val ∧ (i a).val < win0_5.index t a * S1000x512.size a + S1000x512.size a := by
  show i ∈ ((View.whole main_v24).slice (win0_5.rect t)).set ↔ _
  rw [View.set_slice_whole, Rect.mem_set_unit]
  exact Iff.rfl

/-- Row `r` of the output lies in the block of point `r / 1000`: the blocks cover the array. -/
theorem cover (i : S50000x512.Idx) :
    ∃ t : Fin cfg0.N, (cfg0.win 5).flush t = true ∧ i ∈ ((cfg0.win 5).blk t).view.set := by
  have hi0 : (i 0).val < 50000 := (i 0).isLt
  have hi1 : (i 1).val < 512 := (i 1).isLt
  have hN : cfg0.N = 50 := N_0
  have ht : (i 0).val / 1000 < cfg0.N := by rw [hN]; omega
  obtain ⟨a0, a1, b0, b1, c0, c1, d0, d1, f0, f1, g0, g1⟩ := idx_facts ⟨(i 0).val / 1000, ht⟩
  refine ⟨⟨(i 0).val / 1000, ht⟩, flush0_5 _, ?_⟩
  rw [mem_blk]
  intro a
  match a with
  | ⟨0, _⟩ =>
    show win0_5.index ⟨(i 0).val / 1000, ht⟩ (0 : Fin 2) * 1000 ≤ (i 0).val ∧ (i 0).val < win0_5.index ⟨(i 0).val / 1000, ht⟩ (0 : Fin 2) * 1000 + 1000
    rw [g0]; show (i 0).val / 1000 * 1000 ≤ (i 0).val ∧ (i 0).val < (i 0).val / 1000 * 1000 + 1000; omega
  | ⟨1, _⟩ =>
    show win0_5.index ⟨(i 0).val / 1000, ht⟩ (1 : Fin 2) * 512 ≤ (i 1).val ∧ (i 1).val < win0_5.index ⟨(i 0).val / 1000, ht⟩ (1 : Fin 2) * 512 + 512
    rw [g1]; omega

/-- THE OUTPUT ARRAY after the region, as one function of the arrays the region was entered with. -/
theorem value (c : Dev nD) :
    (dat0 V c).arrAt 5 cfg0.N = clampZero (combineRow (V c main_v22 : FVec Ideal S50000x512 .f32) (V c main_arg0 : FVec Ideal S50000x512 .f32) (V c main_arg2 : FVec Ideal S512x512 .f32) (V c main_arg4 : FVec Ideal S512x512 .f32) (V c main_v23 : FVec Ideal S1x512 .f32)) :=
  (dat0 V c).arrAt_eq_of_cover 5 _ (fun t _ => flushed_eq V c t) cover

end Cert.Sage.Region0

end
-- ==== Proof.Region1.lean ====
/-
  Region 1: what the second layer's kernel leaves in its output array.

  The grid has 50 points; point `t` reads rows `1000 t … 1000 t + 999` of the aggregated array and of the node's own
  array, both whole weight matrices and the bias row, and writes rows `1000 t … 1000 t + 999` of the output. Entry
  `(p, q)` of what it writes is `∑ k, a (p, k) · wa (k, q) + ∑ k, b (p, k) · wb (k, q) + bias (0, q)`, with `a`, `b` the
  two row tiles: that is entry `(1000 t + p, q)` of one function of the whole arrays. The 50 blocks tile the array,
  so after the region the array IS that function of the arrays the region was entered with.
-/
import proofs.«101803_j29712583754274_1_alg».proof.Proof.Patched.KernelIdealFrame
import proofs.«101803_j29712583754274_1_alg».proof.Proof.Spec
import proofs.«101803_j29712583754274_1_alg».proof.Proof.Tile
import Idealize.ShloMosaic.Lib.Pipeline.Value

set_option maxRecDepth 16384

noncomputable section

namespace Cert.Sage.Region1

open Idealize.ShloMosaic Idealize.ShloMosaic.TcCoe Idealize.SL.Sem
open Idealize.ShloMosaic.Pipeline (Dat Cfg Window)
open Cert.KernelIdeal Cert.KernelIdeal.Gen Cert.KernelIdeal.GenP Cert.Sage Cert.Sage.Tile

theorem hz : (![0, 0] : Fin 2 → Nat) = fun _ => 0 := funext fun a => by fin_cases a <;> rfl

/-- The body's stored value at an entry of the tile. -/
theorem pay_at (x0 x1 : FVec Ideal S1000x512 .f32) (x2 x3 : FVec Ideal S512x512 .f32) (x4 : FVec Ideal S1x512 .f32)
    (j : S1000x512.Idx) :
    k1_pay1 (F := Ideal) x0 x1 x2 x3 x4 j
      = (∑ k : Fin 512, x0 (tRow j k) * x2 (tCol j k) + ∑ k : Fin 512, x1 (tRow j k) * x3 (tCol j k)) + x4 (tBias j) := by
  have e0 := (matmul_at (shapeCast S1000x512 x0 Facts₀.shapeCasts_S1000x512_S1000x512) x2 j).trans (by rw [shapeCast_self])
  have e1 := (matmul_at (shapeCast S1000x512 x1 Facts₀.shapeCasts_S1000x512_S1000x512) x3 j).trans (by rw [shapeCast_self])
  have e2 := bias_at x4 j
  exact congrArg₂ (· + ·) (congrArg₂ (· + ·) e0 e1) e2

/-- The same entry when the tiles are the matching rows of whole arrays `A`, `B`, the weights and the bias row the whole
    ones: it is the whole-array function's entry `i`. -/
theorem block_entry (A B : FVec Ideal S50000x512 .f32) (WA WB : FVec Ideal S512x512 .f32) (b2 : FVec Ideal S1x512 .f32)
    (x0 x1 : FVec Ideal S1000x512 .f32) (x2 x3 : FVec Ideal S512x512 .f32) (x4 : FVec Ideal S1x512 .f32)
    (j : S1000x512.Idx) (i : S50000x512.Idx)
    (h0 : ∀ k : Fin 512, x0 (tRow j k) = A (rowAt i k)) (h1 : ∀ k : Fin 512, x1 (tRow j k) = B (rowAt i k))
    (h2 : ∀ k : Fin 512, x2 (tCol j k) = WA (colAt i k)) (h3 : ∀ k : Fin 512, x3 (tCol j k) = WB (colAt i k))
    (h4 : x4 (tBias j) = b2 (biasRowAt i)) :
    k1_pay1 (F := Ideal) x0 x1 x2 x3 x4 j = combineRow A B WA WB b2 i := by
  rw [pay_at]
  unfold combineRow rowCol
  simp only [h0, h1, h2, h3, h4]

variable (V : (c : Dev nD) → (b : Ref sig .tc) → Buf (Elt Ideal) ((c : Thread nD τ).loc b))

/-- The index maps over the grid: the row-tiled windows sit at block `(t, 0)`, the whole-array windows at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole-array function. -/
theorem flushed_eq (c : Dev nD) (t : Fin cfg1.N) :
    (dat1 V c).flushed 5 t = ((cfg1.win 5).blk t).view.read (Elt Ideal)
      (combineRow (V c main_v43 : FVec Ideal S50000x512 .f32) (V c main_v24 : FVec Ideal S50000x512 .f32) (V c main_arg5 : FVec Ideal S512x512 .f32) (V c main_arg7 : FVec Ideal S512x512 .f32) (V c main_v44 : FVec Ideal S1x512 .f32)) := by
  show (cfg1.win 5).cut (grid1.coords t) ((dat1 V c).after 5 t) = _
  rw [after1_5]
  unfold out1_5
  rw [View.canon_unit_zero hz]
  simp only [View.ld_unit_zero (S := S1000x512) hz, View.ld_unit_zero (S := S512x512) hz, View.ld_unit_zero (S := S1x512) hz]
  obtain ⟨a0, a1, b0, b1, c0, c1, d0, d1, f0, f1, g0, g1⟩ := idx_facts t
  funext j
  have hj0 : (j 0).val < 1000 := (j 0).isLt
  have hj1 : (j 1).val < 512 := (j 1).isLt
  have hA : ∀ k : Fin 512, ((cfg1.win 0).blk t).view.emb (tRow j k) = rowAt (((cfg1.win 5).blk t).view.emb j) k := fun k => by
    funext a; apply Fin.ext
    match a with
    | ⟨0, _⟩ => show win1_0.index t (0 : Fin 2) * 1000 + 1 * (j 0).val = win1_5.index t (0 : Fin 2) * 1000 + 1 * (j 0).val; omega
    | ⟨1, _⟩ => show win1_0.index t (1 : Fin 2) * 512 + 1 * k.val = k.val; omega
  have hB : ∀ k : Fin 512, ((cfg1.win 1).blk t).view.emb (tRow j k) = rowAt (((cfg1.win 5).blk t).view.emb j) k := fun k => by
    funext a; apply Fin.ext
    match a with
    | ⟨0, _⟩ => show win1_1.index t (0 : Fin 2) * 1000 + 1 * (j 0).val = win1_5.index t (0 : Fin 2) * 1000 + 1 * (j 0).val; omega
    | ⟨1, _⟩ => show win1_1.index t (1 : Fin 2) * 512 + 1 * k.val = k.val; omega
  have hWA : ∀ k : Fin 512, ((cfg1.win 2).blk t).view.emb (tCol j k) = colAt (((cfg1.win 5).blk t).view.emb j) k := fun k => by
    funext a; apply Fin.ext
    match a with
    | ⟨0, _⟩ => show win1_2.index t (0 : Fin 2) * 512 + 1 * k.val = k.val; omega
    | ⟨1, _⟩ => show win1_2.index t (1 : Fin 2) * 512 + 1 * (j 1).val = win1_5.index t (1 : Fin 2) * 512 + 1 * (j 1).val; omega
  have hWB : ∀ k : Fin 512, ((cfg1.win 3).blk t).view.emb (tCol j k) = colAt (((cfg1.win 5).blk t).view.emb j) k := fun k => by
    funext a; apply Fin.ext
    match a with
    | ⟨0, _⟩ => show win1_3.index t (0 : Fin 2) * 512 + 1 * k.val = k.val; omega
    | ⟨1, _⟩ => show win1_3.index t (1 : Fin 2) * 512 + 1 * (j 1).val = win1_5.index t (1 : Fin 2) * 512 + 1 * (j 1).val; omega
  have hb : ((cfg1.win 4).blk t).view.emb (tBias j) = biasRowAt (((cfg1.win 5).blk t).view.emb j) := by
    funext a; apply Fin.ext
    match a with
    | ⟨0, _⟩ => show win1_4.index t (0 : Fin 2) * 1 + 1 * 0 = 0; omega
    | ⟨1, _⟩ => show win1_4.index t (1 : Fin 2) * 512 + 1 * (j 1).val = win1_5.index t (1 : Fin 2) * 512 + 1 * (j 1).val; omega
  exact block_entry (V c main_v43 : FVec Ideal S50000x512 .f32) (V c main_v24 : FVec Ideal S50000x512 .f32) (V c main_arg5 : FVec Ideal S512x512 .f32) (V c main_arg7 : FVec Ideal S512x512 .f32) (V c main_v44 : FVec Ideal S1x512 .f32)
    (iblk1 V c 0 t) (iblk1 V c 1 t) (iblk1 V c 2 t) (iblk1 V c 3 t) (iblk1 V c 4 t) j (((cfg1.win 5).blk t).view.emb j)
    (fun k => congrArg (V c main_v43 : FVec Ideal S50000x512 .f32) (hA k)) (fun k => congrArg (V c main_v24 : FVec Ideal S50000x512 .f32) (hB k))
    (fun k => congrArg (V c main_arg5 : FVec Ideal S512x512 .f32) (hWA k)) (fun k => congrArg (V c main_arg7 : FVec Ideal S512x512 .f32) (hWB k)) (congrArg (V c main_v44 : FVec Ideal S1x512 .f32) hb)

/-- An index of the output array is in point `t`'s block iff each coordinate is in the block's range on its axis. -/
theorem mem_blk (t : Fin cfg1.N) (i : S50000x512.Idx) :
    i ∈ ((cfg1.win 5).blk t).view.set ↔ ∀ a : Fin 2, win1_5.index t a * S1000x512.size a ≤ (i a).val ∧ (i a).val < win1_5.index t a * S1000x512.size a + S1000x512.size a := by
  show i ∈ ((View.whole main_v45).slice (win1_5.rect t)).set ↔ _
  rw [View.set_slice_whole, Rect.mem_set_unit]
  exact Iff.rfl

/-- Row `r` of the output lies in the block of point `r / 1000`: the blocks cover the array. -/
theorem cover (i : S50000x512.Idx) :
    ∃ t : Fin cfg1.N, (cfg1.win 5).flush t = true ∧ i ∈ ((cfg1.win 5).blk t).view.set := by
  have hi0 : (i 0).val < 50000 := (i 0).isLt
  have hi1 : (i 1).val < 512 := (i 1).isLt
  have hN : cfg1.N = 50 := N_1
  have ht : (i 0).val / 1000 < cfg1.N := by rw [hN]; omega
  obtain ⟨a0, a1, b0, b1, c0, c1, d0, d1, f0, f1, g0, g1⟩ := idx_facts ⟨(i 0).val / 1000, ht⟩
  refine ⟨⟨(i 0).val / 1000, ht⟩, flush1_5 _, ?_⟩
  rw [mem_blk]
  intro a
  match a with
  | ⟨0, _⟩ =>
    show win1_5.index ⟨(i 0).val / 1000, ht⟩ (0 : Fin 2) * 1000 ≤ (i 0).val ∧ (i 0).val < win1_5.index ⟨(i 0).val / 1000, ht⟩ (0 : Fin 2) * 1000 + 1000
    rw [g0]; show (i 0).val / 1000 * 1000 ≤ (i 0).val ∧ (i 0).val < (i 0).val / 1000 * 1000 + 1000; omega
  | ⟨1, _⟩ =>
    show win1_5.index ⟨(i 0).val / 1000, ht⟩ (1 : Fin 2) * 512 ≤ (i 1).val ∧ (i 1).val < win1_5.index ⟨(i 0).val / 1000, ht⟩ (1 : Fin 2) * 512 + 512
    rw [g1]; omega

/-- THE OUTPUT ARRAY after the region, as one function of the arrays the region was entered with. -/
theorem value (c : Dev nD) :
    (dat1 V c).arrAt 5 cfg1.N = combineRow (V c main_v43 : FVec Ideal S50000x512 .f32) (V c main_v24 : FVec Ideal S50000x512 .f32) (V c main_arg5 : FVec Ideal S512x512 .f32) (V c main_arg7 : FVec Ideal S512x512 .f32) (V c main_v44 : FVec Ideal S1x512 .f32) :=
  (dat1 V c).arrAt_eq_of_cover 5 _ (fun t _ => flushed_eq V c t) cover

end Cert.Sage.Region1

end
-- ==== Proof.Region2.lean ====
/-
  Region 2: what the two-head kernel leaves in its two output arrays.

  The grid has 50 points; point `t` reads rows `1000 t … 1000 t + 999` of the second layer's output, both heads' whole
  weight matrices and bias rows, and writes rows `1000 t … 1000 t + 999` of each head's output: entry `(p, q)` is
  `∑ k, h (p, k) · w (k, q) + bias (0, q)` clamped at zero — entry `(1000 t + p, q)` of one function of the whole arrays.
  The 50 blocks tile each output array, so after the region each array IS that function of the arrays the region was
  entered with.
-/
import proofs.«101803_j29712583754274_1_alg».proof.Proof.Patched.KernelIdealFrame
import proofs.«101803_j29712583754274_1_alg».proof.Proof.Spec
import proofs.«101803_j29712583754274_1_alg».proof.Proof.Tile
import Idealize.ShloMosaic.Lib.Pipeline.Value

set_option maxRecDepth 16384

noncomputable section

namespace Cert.Sage.Region2

open Idealize.ShloMosaic Idealize.ShloMosaic.TcCoe Idealize.SL.Sem
open Idealize.ShloMosaic.Pipeline (Dat Cfg Window)
open Cert.KernelIdeal Cert.KernelIdeal.Gen Cert.KernelIdeal.GenP Cert.Sage Cert.Sage.Tile

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-tiled windows sit at block `(t, 0)`, the whole-array windows at `(0, 0)`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## Output window 5: the head over weight window 1 and bias window 3 -/

/-- The body's stored value at an entry of the tile. -/
theorem pay5_at (x0 : FVec Ideal S1000x512 .f32) (x1 : FVec Ideal S512x512 .f32) (x2 : FVec Ideal S1x512 .f32) (j : S1000x512.Idx) :
    k2_pay2 (F := Ideal) x0 x1 x2 j
      = max (∑ k : Fin 512, x0 (tRow j k) * x1 (tCol j k) + x2 (tBias j)) (Ideal.ofBits .f32 0x00000000#32) := by
  have e0 := (matmul_at (shapeCast S1000x512 x0 Facts₀.shapeCasts_S1000x512_S1000x512) x1 j).trans (by rw [shapeCast_self])
  have e2 := bias_at x2 j
  exact congrArg₂ max (congrArg₂ (· + ·) e0 e2) rfl

/-- The same entry when the tile is the matching rows of a whole array `A`, the weight and the bias row the whole ones. -/
theorem block5_entry (A : FVec Ideal S50000x512 .f32) (W : FVec Ideal S512x512 .f32) (b2 : FVec Ideal S1x512 .f32)
    (x0 : FVec Ideal S1000x512 .f32) (x1 : FVec Ideal S512x512 .f32) (x2 : FVec Ideal S1x512 .f32)
    (j : S1000x512.Idx) (i : S50000x512.Idx)
    (h0 : ∀ k : Fin 512, x0 (tRow j k) = A (rowAt i k)) (h1 : ∀ k : Fin 512, x1 (tCol j k) = W (colAt i k))
    (h2 : x2 (tBias j) = b2 (biasRowAt i)) :
    k2_pay2 (F := Ideal) x0 x1 x2 j = clampZero (affineRow A W b2) i := by
  rw [pay5_at]
  unfold clampZero affineRow rowCol
  simp only [h0, h1, h2]

/-- What point `t` writes back through window 5 is block `t` of the whole-array function. -/
theorem flushed5_eq (c : Dev nD) (t : Fin cfg2.N) :
    (dat2 V c).flushed 5 t = ((cfg2.win 5).blk t).view.read (Elt Ideal)
      (clampZero (affineRow (V c main_v45 : FVec Ideal S50000x512 .f32) (V c main_arg8 : FVec Ideal S512x512 .f32) (V c main_v46 : FVec Ideal S1x512 .f32))) := by
  show (cfg2.win 5).cut (grid2.coords t) ((dat2 V c).after 5 t) = _
  rw [after2_5]
  unfold out2_5
  rw [View.canon_unit_zero hz]
  simp only [View.ld_unit_zero (S := S1000x512) hz, View.ld_unit_zero (S := S512x512) hz, View.ld_unit_zero (S := S1x512) hz]
  obtain ⟨a0, a1, b0, b1, c0, c1, d0, d1, f0, f1, g0, g1, h0, h1⟩ := idx_facts t
  funext j
  have hj0 : (j 0).val < 1000 := (j 0).isLt
  have hj1 : (j 1).val < 512 := (j 1).isLt
  have hA : ∀ k : Fin 512, ((cfg2.win 0).blk t).view.emb (tRow j k) = rowAt (((cfg2.win 5).blk t).view.emb j) k := fun k => by
    funext a; apply Fin.ext
    match a with
    | ⟨0, _⟩ => show win2_0.index t (0 : Fin 2) * 1000 + 1 * (j 0).val = win2_5.index t (0 : Fin 2) * 1000 + 1 * (j 0).val; omega
    | ⟨1, _⟩ => show win2_0.index t (1 : Fin 2) * 512 + 1 * k.val = k.val; omega
  have hW : ∀ k : Fin 512, ((cfg2.win 1).blk t).view.emb (tCol j k) = colAt (((cfg2.win 5).blk t).view.emb j) k := fun k => by
    funext a; apply Fin.ext
    match a with
    | ⟨0, _⟩ => show win2_1.index t (0 : Fin 2) * 512 + 1 * k.val = k.val; omega
    | ⟨1, _⟩ => show win2_1.index t (1 : Fin 2) * 512 + 1 * (j 1).val = win2_5.index t (1 : Fin 2) * 512 + 1 * (j 1).val; omega
  have hb : ((cfg2.win 3).blk t).view.emb (tBias j) = biasRowAt (((cfg2.win 5).blk t).view.emb j) := by
    funext a; apply Fin.ext
    match a with
    | ⟨0, _⟩ => show win2_3.index t (0 : Fin 2) * 1 + 1 * 0 = 0; omega
    | ⟨1, _⟩ => show win2_3.index t (1 : Fin 2) * 512 + 1 * (j 1).val = win2_5.index t (1 : Fin 2) * 512 + 1 * (j 1).val; omega
  exact block5_entry (V c main_v45 : FVec Ideal S50000x512 .f32) (V c main_arg8 : FVec Ideal S512x512 .f32) (V c main_v46 : FVec Ideal S1x512 .f32) (iblk2 V c 0 t) (iblk2 V c 1 t) (iblk2 V c 3 t) j (((cfg2.win 5).blk t).view.emb j)
    (fun k => congrArg (V c main_v45 : FVec Ideal S50000x512 .f32) (hA k)) (fun k => congrArg (V c main_arg8 : FVec Ideal S512x512 .f32) (hW k)) (congrArg (V c main_v46 : FVec Ideal S1x512 .f32) hb)

/-- An index of the output array is in point `t`'s block iff each coordinate is in the block's range on its axis. -/
theorem mem_blk5 (t : Fin cfg2.N) (i : S50000x512.Idx) :
    i ∈ ((cfg2.win 5).blk t).view.set ↔ ∀ a : Fin 2, win2_5.index t a * S1000x512.size a ≤ (i a).val ∧ (i a).val < win2_5.index t a * S1000x512.size a + S1000x512.size a := by
  show i ∈ ((View.whole main_v48_0).slice (win2_5.rect t)).set ↔ _
  rw [View.set_slice_whole, Rect.mem_set_unit]
  exact Iff.rfl

/-- Row `r` of the output lies in the block of point `r / 1000`: the blocks cover the array. -/
theorem cover5 (i : S50000x512.Idx) :
    ∃ t : Fin cfg2.N, (cfg2.win 5).flush t = true ∧ i ∈ ((cfg2.win 5).blk t).view.set := by
  have hi0 : (i 0).val < 50000 := (i 0).isLt
  have hi1 : (i 1).val < 512 := (i 1).isLt
  have hN : cfg2.N = 50 := N_2
  have ht : (i 0).val / 1000 < cfg2.N := by rw [hN]; omega
  obtain ⟨a0, a1, b0, b1, c0, c1, d0, d1, f0, f1, g0, g1, h0, h1⟩ := idx_facts ⟨(i 0).val / 1000, ht⟩
  refine ⟨⟨(i 0).val / 1000, ht⟩, flush2_5 _, ?_⟩
  rw [mem_blk5]
  intro a
  match a with
  | ⟨0, _⟩ =>
    show win2_5.index ⟨(i 0).val / 1000, ht⟩ (0 : Fin 2) * 1000 ≤ (i 0).val ∧ (i 0).val < win2_5.index ⟨(i 0).val / 1000, ht⟩ (0 : Fin 2) * 1000 + 1000
    rw [g0]; show (i 0).val / 1000 * 1000 ≤ (i 0).val ∧ (i 0).val < (i 0).val / 1000 * 1000 + 1000; omega
  | ⟨1, _⟩ =>
    show win2_5.index ⟨(i 0).val / 1000, ht⟩ (1 : Fin 2) * 512 ≤ (i 1).val ∧ (i 1).val < win2_5.index ⟨(i 0).val / 1000, ht⟩ (1 : Fin 2) * 512 + 512
    rw [g1]; omega

/-- THE OUTPUT ARRAY of window 5 after the region, as one function of the arrays the region was entered with. -/
theorem value5 (c : Dev nD) :
    (dat2 V c).arrAt 5 cfg2.N = clampZero (affineRow (V c main_v45 : FVec Ideal S50000x512 .f32) (V c main_arg8 : FVec Ideal S512x512 .f32) (V c main_v46 : FVec Ideal S1x512 .f32)) :=
  (dat2 V c).arrAt_eq_of_cover 5 _ (fun t _ => flushed5_eq V c t) cover5

/-! ## Output window 6: the head over weight window 2 and bias window 4 -/

/-- The body's stored value at an entry of the tile. -/
theorem pay6_at (x0 : FVec Ideal S1000x512 .f32) (x1 : FVec Ideal S512x512 .f32) (x2 : FVec Ideal S1x512 .f32) (j : S1000x512.Idx) :
    k2_pay3 (F := Ideal) x0 x1 x2 j
      = max (∑ k : Fin 512, x0 (tRow j k) * x1 (tCol j k) + x2 (tBias j)) (Ideal.ofBits .f32 0x00000000#32) := by
  have e0 := (matmul_at (shapeCast S1000x512 x0 Facts₀.shapeCasts_S1000x512_S1000x512) x1 j).trans (by rw [shapeCast_self])
  have e2 := bias_at x2 j
  exact congrArg₂ max (congrArg₂ (· + ·) e0 e2) rfl

/-- The same entry when the tile is the matching rows of a whole array `A`, the weight and the bias row the whole ones. -/
theorem block6_entry (A : FVec Ideal S50000x512 .f32) (W : FVec Ideal S512x512 .f32) (b2 : FVec Ideal S1x512 .f32)
    (x0 : FVec Ideal S1000x512 .f32) (x1 : FVec Ideal S512x512 .f32) (x2 : FVec Ideal S1x512 .f32)
    (j : S1000x512.Idx) (i : S50000x512.Idx)
    (h0 : ∀ k : Fin 512, x0 (tRow j k) = A (rowAt i k)) (h1 : ∀ k : Fin 512, x1 (tCol j k) = W (colAt i k))
    (h2 : x2 (tBias j) = b2 (biasRowAt i)) :
    k2_pay3 (F := Ideal) x0 x1 x2 j = clampZero (affineRow A W b2) i := by
  rw [pay6_at]
  unfold clampZero affineRow rowCol
  simp only [h0, h1, h2]

/-- What point `t` writes back through window 6 is block `t` of the whole-array function. -/
theorem flushed6_eq (c : Dev nD) (t : Fin cfg2.N) :
    (dat2 V c).flushed 6 t = ((cfg2.win 6).blk t).view.read (Elt Ideal)
      (clampZero (affineRow (V c main_v45 : FVec Ideal S50000x512 .f32) (V c main_arg10 : FVec Ideal S512x512 .f32) (V c main_v47 : FVec Ideal S1x512 .f32))) := by
  show (cfg2.win 6).cut (grid2.coords t) ((dat2 V c).after 6 t) = _
  rw [after2_6]
  unfold out2_6
  rw [View.canon_unit_zero hz]
  simp only [View.ld_unit_zero (S := S1000x512) hz, View.ld_unit_zero (S := S512x512) hz, View.ld_unit_zero (S := S1x512) hz]
  obtain ⟨a0, a1, b0, b1, c0, c1, d0, d1, f0, f1, g0, g1, h0, h1⟩ := idx_facts t
  funext j
  have hj0 : (j 0).val < 1000 := (j 0).isLt
  have hj1 : (j 1).val < 512 := (j 1).isLt
  have hA : ∀ k : Fin 512, ((cfg2.win 0).blk t).view.emb (tRow j k) = rowAt (((cfg2.win 6).blk t).view.emb j) k := fun k => by
    funext a; apply Fin.ext
    match a with
    | ⟨0, _⟩ => show win2_0.index t (0 : Fin 2) * 1000 + 1 * (j 0).val = win2_6.index t (0 : Fin 2) * 1000 + 1 * (j 0).val; omega
    | ⟨1, _⟩ => show win2_0.index t (1 : Fin 2) * 512 + 1 * k.val = k.val; omega
  have hW : ∀ k : Fin 512, ((cfg2.win 2).blk t).view.emb (tCol j k) = colAt (((cfg2.win 6).blk t).view.emb j) k := fun k => by
    funext a; apply Fin.ext
    match a with
    | ⟨0, _⟩ => show win2_2.index t (0 : Fin 2) * 512 + 1 * k.val = k.val; omega
    | ⟨1, _⟩ => show win2_2.index t (1 : Fin 2) * 512 + 1 * (j 1).val = win2_6.index t (1 : Fin 2) * 512 + 1 * (j 1).val; omega
  have hb : ((cfg2.win 4).blk t).view.emb (tBias j) = biasRowAt (((cfg2.win 6).blk t).view.emb j) := by
    funext a; apply Fin.ext
    match a with
    | ⟨0, _⟩ => show win2_4.index t (0 : Fin 2) * 1 + 1 * 0 = 0; omega
    | ⟨1, _⟩ => show win2_4.index t (1 : Fin 2) * 512 + 1 * (j 1).val = win2_6.index t (1 : Fin 2) * 512 + 1 * (j 1).val; omega
  exact block6_entry (V c main_v45 : FVec Ideal S50000x512 .f32) (V c main_arg10 : FVec Ideal S512x512 .f32) (V c main_v47 : FVec Ideal S1x512 .f32) (iblk2 V c 0 t) (iblk2 V c 2 t) (iblk2 V c 4 t) j (((cfg2.win 6).blk t).view.emb j)
    (fun k => congrArg (V c main_v45 : FVec Ideal S50000x512 .f32) (hA k)) (fun k => congrArg (V c main_arg10 : FVec Ideal S512x512 .f32) (hW k)) (congrArg (V c main_v47 : FVec Ideal S1x512 .f32) hb)

/-- An index of the output array is in point `t`'s block iff each coordinate is in the block's range on its axis. -/
theorem mem_blk6 (t : Fin cfg2.N) (i : S50000x512.Idx) :
    i ∈ ((cfg2.win 6).blk t).view.set ↔ ∀ a : Fin 2, win2_6.index t a * S1000x512.size a ≤ (i a).val ∧ (i a).val < win2_6.index t a * S1000x512.size a + S1000x512.size a := by
  show i ∈ ((View.whole main_v48_1).slice (win2_6.rect t)).set ↔ _
  rw [View.set_slice_whole, Rect.mem_set_unit]
  exact Iff.rfl

/-- Row `r` of the output lies in the block of point `r / 1000`: the blocks cover the array. -/
theorem cover6 (i : S50000x512.Idx) :
    ∃ t : Fin cfg2.N, (cfg2.win 6).flush t = true ∧ i ∈ ((cfg2.win 6).blk t).view.set := by
  have hi0 : (i 0).val < 50000 := (i 0).isLt
  have hi1 : (i 1).val < 512 := (i 1).isLt
  have hN : cfg2.N = 50 := N_2
  have ht : (i 0).val / 1000 < cfg2.N := by rw [hN]; omega
  obtain ⟨a0, a1, b0, b1, c0, c1, d0, d1, f0, f1, g0, g1, h0, h1⟩ := idx_facts ⟨(i 0).val / 1000, ht⟩
  refine ⟨⟨(i 0).val / 1000, ht⟩, flush2_6 _, ?_⟩
  rw [mem_blk6]
  intro a
  match a with
  | ⟨0, _⟩ =>
    show win2_6.index ⟨(i 0).val / 1000, ht⟩ (0 : Fin 2) * 1000 ≤ (i 0).val ∧ (i 0).val < win2_6.index ⟨(i 0).val / 1000, ht⟩ (0 : Fin 2) * 1000 + 1000
    rw [h0]; show (i 0).val / 1000 * 1000 ≤ (i 0).val ∧ (i 0).val < (i 0).val / 1000 * 1000 + 1000; omega
  | ⟨1, _⟩ =>
    show win2_6.index ⟨(i 0).val / 1000, ht⟩ (1 : Fin 2) * 512 ≤ (i 1).val ∧ (i 1).val < win2_6.index ⟨(i 0).val / 1000, ht⟩ (1 : Fin 2) * 512 + 512
    rw [h1]; omega

/-- THE OUTPUT ARRAY of window 6 after the region, as one function of the arrays the region was entered with. -/
theorem value6 (c : Dev nD) :
    (dat2 V c).arrAt 6 cfg2.N = clampZero (affineRow (V c main_v45 : FVec Ideal S50000x512 .f32) (V c main_arg10 : FVec Ideal S512x512 .f32) (V c main_v47 : FVec Ideal S1x512 .f32)) :=
  (dat2 V c).arrAt_eq_of_cover 6 _ (fun t _ => flushed6_eq V c t) cover6

end Cert.Sage.Region2

end
-- ==== Proof.Fold.lean ====
/-
  The host stretches between the kernel regions, each read for ANY contents `W` it may be entered with.

  Stretch 0 (before the first region) slices the edge table into its source and destination vectors, aggregates the
  node features by the mean over incoming edges and lays the first bias out as a row. Stretch 1 does the same
  aggregation for the first layer's output, reusing the two edge vectors, and lays out the second bias. Stretch 2 lays
  out the two heads' biases. Every other buffer is left as found.
-/
import proofs.«101803_j29712583754274_1_alg».proof.Proof.Patched.KernelIdealFrame
import proofs.«101803_j29712583754274_1_alg».proof.Proof.Spec
import Idealize.ShloMosaic.Lib.StableHlo.Run

set_option maxRecDepth 16384

noncomputable section

namespace Cert.Sage.Fold

open Idealize.ShloMosaic Idealize.ShloMosaic.TcCoe Idealize.SL.Sem Idealize.ShloMosaic.StableHlo
open Cert.KernelIdeal Cert.KernelIdeal.Facts₀ Cert.KernelIdeal.Gen Cert.KernelIdeal.GenP Cert.Sage

/-! ## Stretch 0 -/

set_option maxHeartbeats 8000000 in
/-- The source vector: row 0 of the edge table. -/
theorem src0 (W : Valuation τ sig (Elt Ideal)) :
    StableHlo.after (hostOps0 (F := Ideal)) W (Proc.devRef .tc main_v1) = srcOf (W (Proc.devRef .tc main_arg1)) := by
  after_results_simp
  rfl

set_option maxHeartbeats 8000000 in
/-- The destination vector: row 1 of the edge table. -/
theorem dst0 (W : Valuation τ sig (Elt Ideal)) :
    StableHlo.after (hostOps0 (F := Ideal)) W (Proc.devRef .tc main_v3) = dstOf (W (Proc.devRef .tc main_arg1)) := by
  after_results_simp
  rfl

set_option maxHeartbeats 8000000 in
/-- The mean aggregate of the node features. -/
theorem agg0 (W : Valuation τ sig (Elt Ideal)) :
    StableHlo.after (hostOps0 (F := Ideal)) W (Proc.devRef .tc main_v22)
      = agg (W (Proc.devRef .tc main_arg0)) (srcOf (W (Proc.devRef .tc main_arg1))) (dstOf (W (Proc.devRef .tc main_arg1))) := by
  after_results_simp
  rfl

set_option maxHeartbeats 8000000 in
/-- The first layer's bias as a row. -/
theorem bias0 (W : Valuation τ sig (Elt Ideal)) :
    StableHlo.after (hostOps0 (F := Ideal)) W (Proc.devRef .tc main_v23) = shapeCast S1x512 (W (Proc.devRef .tc main_arg3)) Facts₀.shapeCasts_S512_S1x512 := by
  after_results_simp
  rfl

theorem keeps0_main_arg0 (W : Valuation τ sig (Elt Ideal)) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg2 (W : Valuation τ sig (Elt Ideal)) :
    StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg4 (W : Valuation τ sig (Elt Ideal)) :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg5 (W : Valuation τ sig (Elt Ideal)) :
    StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg6 (W : Valuation τ sig (Elt Ideal)) :
    StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg7 (W : Valuation τ sig (Elt Ideal)) :
    StableHlo.after (hostOps0 (F := Ideal)) W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg8 (W : Valuation τ sig (Elt Ideal)) :
    StableHlo.after (hostOps0 (F := Ideal)) W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg9 (W : Valuation τ sig (Elt Ideal)) :
    StableHlo.after (hostOps0 (F := Ideal)) W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg10 (W : Valuation τ sig (Elt Ideal)) :
    StableHlo.after (hostOps0 (F := Ideal)) W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps0_main_arg11 (W : Valuation τ sig (Elt Ideal)) :
    StableHlo.after (hostOps0 (F := Ideal)) W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 1 -/

set_option maxHeartbeats 8000000 in
/-- The mean aggregate of the first layer's output, over the edge vectors stretch 0 left. -/
theorem agg1 (W : Valuation τ sig (Elt Ideal)) :
    StableHlo.after (hostOps1 (F := Ideal)) W (Proc.devRef .tc main_v43)
      = agg (W (Proc.devRef .tc main_v24)) (W (Proc.devRef .tc main_v1)) (W (Proc.devRef .tc main_v3)) := by
  after_results_simp
  rfl

set_option maxHeartbeats 8000000 in
/-- The second layer's bias as a row. -/
theorem bias1 (W : Valuation τ sig (Elt Ideal)) :
    StableHlo.after (hostOps1 (F := Ideal)) W (Proc.devRef .tc main_v44) = shapeCast S1x512 (W (Proc.devRef .tc main_arg6)) Facts₀.shapeCasts_S512_S1x512 := by
  after_results_simp
  rfl

theorem keeps1_main_arg5 (W : Valuation τ sig (Elt Ideal)) :
    StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_main_arg7 (W : Valuation τ sig (Elt Ideal)) :
    StableHlo.after (hostOps1 (F := Ideal)) W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_main_arg8 (W : Valuation τ sig (Elt Ideal)) :
    StableHlo.after (hostOps1 (F := Ideal)) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_main_arg9 (W : Valuation τ sig (Elt Ideal)) :
    StableHlo.after (hostOps1 (F := Ideal)) W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_main_arg10 (W : Valuation τ sig (Elt Ideal)) :
    StableHlo.after (hostOps1 (F := Ideal)) W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_main_arg11 (W : Valuation τ sig (Elt Ideal)) :
    StableHlo.after (hostOps1 (F := Ideal)) W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps1_main_v24 (W : Valuation τ sig (Elt Ideal)) :
    StableHlo.after (hostOps1 (F := Ideal)) W (Proc.devRef .tc main_v24) = W (Proc.devRef .tc main_v24) :=
  StableHlo.after_of_forall_not_mem (b := Proc.devRef .tc main_v24) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 2 -/

/-- The first head's bias as a row. -/
theorem bias2v (W : Valuation τ sig (Elt Ideal)) :
    StableHlo.after (hostOps2 (F := Ideal)) W (Proc.devRef .tc main_v46) = shapeCast S1x512 (W (Proc.devRef .tc main_arg9)) Facts₀.shapeCasts_S512_S1x512 := by
  after_results
  rfl

/-- The second head's bias as a row. -/
theorem bias2t (W : Valuation τ sig (Elt Ideal)) :
    StableHlo.after (hostOps2 (F := Ideal)) W (Proc.devRef .tc main_v47) = shapeCast S1x512 (W (Proc.devRef .tc main_arg11)) Facts₀.shapeCasts_S512_S1x512 := by
  after_results
  rfl

theorem keeps2_main_arg8 (W : Valuation τ sig (Elt Ideal)) :
    StableHlo.after (hostOps2 (F := Ideal)) W (Proc.devRef .tc main_arg8) = W (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps2_main_arg10 (W : Valuation τ sig (Elt Ideal)) :
    StableHlo.after (hostOps2 (F := Ideal)) W (Proc.devRef .tc main_arg10) = W (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keeps2_main_v45 (W : Valuation τ sig (Elt Ideal)) :
    StableHlo.after (hostOps2 (F := Ideal)) W (Proc.devRef .tc main_v45) = W (Proc.devRef .tc main_v45) :=
  StableHlo.after_of_forall_not_mem (b := Proc.devRef .tc main_v45) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.Sage.Fold

end
-- ==== Proof.KernelValue.lean ====
/-
  The kernel program's three results as functions of its launch memory.

  Walking the boundaries: after stretch 0 the aggregate of the node features and the first bias row are in place;
  region 0 leaves the first layer's output (its whole-array value, with the bias row a reshaped vector); stretch 1
  aggregates that output over the same edge vectors; region 1 leaves the second layer's output; stretch 2 lays out the
  heads' biases; region 2 leaves the two heads. An argument array is never written, so wherever it is read it holds its
  launch contents.
-/
import proofs.«101803_j29712583754274_1_alg».proof.Proof.Region0
import proofs.«101803_j29712583754274_1_alg».proof.Proof.Region1
import proofs.«101803_j29712583754274_1_alg».proof.Proof.Region2
import proofs.«101803_j29712583754274_1_alg».proof.Proof.Fold

set_option maxRecDepth 16384

noncomputable section

namespace Cert.Sage.KernelValue

open Idealize.ShloMosaic Idealize.ShloMosaic.TcCoe Idealize.SL.Sem
open Cert.KernelIdeal Cert.KernelIdeal.Facts₀ Cert.KernelIdeal.Gen Cert.KernelIdeal.GenP Cert.Sage

variable (m : (ℓ : Loc nD τ sig) → Buf (Elt Ideal) ℓ) (ρ : Dev nD → PrngReg) (c : Dev nD)

/-! ## The arguments, wherever they are read -/

theorem w1_arg0 : W1 m ρ c (Proc.devRef .tc main_arg0) = m ((c : Thread nD τ).loc main_arg0) := Fold.keeps0_main_arg0 (W0 m ρ c)
theorem w1_arg2 : W1 m ρ c (Proc.devRef .tc main_arg2) = m ((c : Thread nD τ).loc main_arg2) := Fold.keeps0_main_arg2 (W0 m ρ c)
theorem w1_arg4 : W1 m ρ c (Proc.devRef .tc main_arg4) = m ((c : Thread nD τ).loc main_arg4) := Fold.keeps0_main_arg4 (W0 m ρ c)
theorem w1_arg5 : W1 m ρ c (Proc.devRef .tc main_arg5) = m ((c : Thread nD τ).loc main_arg5) := Fold.keeps0_main_arg5 (W0 m ρ c)
theorem w1_arg6 : W1 m ρ c (Proc.devRef .tc main_arg6) = m ((c : Thread nD τ).loc main_arg6) := Fold.keeps0_main_arg6 (W0 m ρ c)
theorem w1_arg7 : W1 m ρ c (Proc.devRef .tc main_arg7) = m ((c : Thread nD τ).loc main_arg7) := Fold.keeps0_main_arg7 (W0 m ρ c)
theorem w1_arg8 : W1 m ρ c (Proc.devRef .tc main_arg8) = m ((c : Thread nD τ).loc main_arg8) := Fold.keeps0_main_arg8 (W0 m ρ c)
theorem w1_arg9 : W1 m ρ c (Proc.devRef .tc main_arg9) = m ((c : Thread nD τ).loc main_arg9) := Fold.keeps0_main_arg9 (W0 m ρ c)
theorem w1_arg10 : W1 m ρ c (Proc.devRef .tc main_arg10) = m ((c : Thread nD τ).loc main_arg10) := Fold.keeps0_main_arg10 (W0 m ρ c)
theorem w1_arg11 : W1 m ρ c (Proc.devRef .tc main_arg11) = m ((c : Thread nD τ).loc main_arg11) := Fold.keeps0_main_arg11 (W0 m ρ c)
theorem w2_arg5 : W2 m ρ c (Proc.devRef .tc main_arg5) = m ((c : Thread nD τ).loc main_arg5) := (W2_of_ne m ρ c main_arg5 (by decide)).trans (w1_arg5 m ρ c)
theorem w2_arg6 : W2 m ρ c (Proc.devRef .tc main_arg6) = m ((c : Thread nD τ).loc main_arg6) := (W2_of_ne m ρ c main_arg6 (by decide)).trans (w1_arg6 m ρ c)
theorem w2_arg7 : W2 m ρ c (Proc.devRef .tc main_arg7) = m ((c : Thread nD τ).loc main_arg7) := (W2_of_ne m ρ c main_arg7 (by decide)).trans (w1_arg7 m ρ c)
theorem w2_arg8 : W2 m ρ c (Proc.devRef .tc main_arg8) = m ((c : Thread nD τ).loc main_arg8) := (W2_of_ne m ρ c main_arg8 (by decide)).trans (w1_arg8 m ρ c)
theorem w2_arg9 : W2 m ρ c (Proc.devRef .tc main_arg9) = m ((c : Thread nD τ).loc main_arg9) := (W2_of_ne m ρ c main_arg9 (by decide)).trans (w1_arg9 m ρ c)
theorem w2_arg10 : W2 m ρ c (Proc.devRef .tc main_arg10) = m ((c : Thread nD τ).loc main_arg10) := (W2_of_ne m ρ c main_arg10 (by decide)).trans (w1_arg10 m ρ c)
theorem w2_arg11 : W2 m ρ c (Proc.devRef .tc main_arg11) = m ((c : Thread nD τ).loc main_arg11) := (W2_of_ne m ρ c main_arg11 (by decide)).trans (w1_arg11 m ρ c)
theorem w3_arg5 : W3 m ρ c (Proc.devRef .tc main_arg5) = m ((c : Thread nD τ).loc main_arg5) := (Fold.keeps1_main_arg5 (W2 m ρ c)).trans (w2_arg5 m ρ c)
theorem w3_arg7 : W3 m ρ c (Proc.devRef .tc main_arg7) = m ((c : Thread nD τ).loc main_arg7) := (Fold.keeps1_main_arg7 (W2 m ρ c)).trans (w2_arg7 m ρ c)
theorem w3_arg8 : W3 m ρ c (Proc.devRef .tc main_arg8) = m ((c : Thread nD τ).loc main_arg8) := (Fold.keeps1_main_arg8 (W2 m ρ c)).trans (w2_arg8 m ρ c)
theorem w3_arg9 : W3 m ρ c (Proc.devRef .tc main_arg9) = m ((c : Thread nD τ).loc main_arg9) := (Fold.keeps1_main_arg9 (W2 m ρ c)).trans (w2_arg9 m ρ c)
theorem w3_arg10 : W3 m ρ c (Proc.devRef .tc main_arg10) = m ((c : Thread nD τ).loc main_arg10) := (Fold.keeps1_main_arg10 (W2 m ρ c)).trans (w2_arg10 m ρ c)
theorem w3_arg11 : W3 m ρ c (Proc.devRef .tc main_arg11) = m ((c : Thread nD τ).loc main_arg11) := (Fold.keeps1_main_arg11 (W2 m ρ c)).trans (w2_arg11 m ρ c)
theorem w4_arg8 : W4 m ρ c (Proc.devRef .tc main_arg8) = m ((c : Thread nD τ).loc main_arg8) := (W4_of_ne m ρ c main_arg8 (by decide)).trans (w3_arg8 m ρ c)
theorem w4_arg9 : W4 m ρ c (Proc.devRef .tc main_arg9) = m ((c : Thread nD τ).loc main_arg9) := (W4_of_ne m ρ c main_arg9 (by decide)).trans (w3_arg9 m ρ c)
theorem w4_arg10 : W4 m ρ c (Proc.devRef .tc main_arg10) = m ((c : Thread nD τ).loc main_arg10) := (W4_of_ne m ρ c main_arg10 (by decide)).trans (w3_arg10 m ρ c)
theorem w4_arg11 : W4 m ρ c (Proc.devRef .tc main_arg11) = m ((c : Thread nD τ).loc main_arg11) := (W4_of_ne m ρ c main_arg11 (by decide)).trans (w3_arg11 m ρ c)
theorem w5_arg8 : W5 m ρ c (Proc.devRef .tc main_arg8) = m ((c : Thread nD τ).loc main_arg8) := (Fold.keeps2_main_arg8 (W4 m ρ c)).trans (w4_arg8 m ρ c)
theorem w5_arg10 : W5 m ρ c (Proc.devRef .tc main_arg10) = m ((c : Thread nD τ).loc main_arg10) := (Fold.keeps2_main_arg10 (W4 m ρ c)).trans (w4_arg10 m ρ c)

/-! ## The first layer -/

theorem w1_v22 : W1 m ρ c (Proc.devRef .tc main_v22) = agg (m ((c : Thread nD τ).loc main_arg0)) (srcOf (m ((c : Thread nD τ).loc main_arg1))) (dstOf (m ((c : Thread nD τ).loc main_arg1))) := Fold.agg0 (W0 m ρ c)
theorem w1_v23 : W1 m ρ c (Proc.devRef .tc main_v23) = shapeCast S1x512 (m ((c : Thread nD τ).loc main_arg3)) Facts₀.shapeCasts_S512_S1x512 := Fold.bias0 (W0 m ρ c)
theorem w1_v1 : W1 m ρ c (Proc.devRef .tc main_v1) = srcOf (m ((c : Thread nD τ).loc main_arg1)) := Fold.src0 (W0 m ρ c)
theorem w1_v3 : W1 m ρ c (Proc.devRef .tc main_v3) = dstOf (m ((c : Thread nD τ).loc main_arg1)) := Fold.dst0 (W0 m ρ c)

/-- Region 0 leaves the first layer's output. -/
theorem w2_v24 : W2 m ρ c (Proc.devRef .tc main_v24) = layer1 (m ((c : Thread nD τ).loc main_arg0)) (m ((c : Thread nD τ).loc main_arg1)) (m ((c : Thread nD τ).loc main_arg2)) (m ((c : Thread nD τ).loc main_arg4)) (m ((c : Thread nD τ).loc main_arg3)) :=
  (W2_arr m ρ c 5).trans ((Region0.value (V1 m ρ) c).trans (by
    show clampZero (combineRow (W1 m ρ c (Proc.devRef .tc main_v22)) (W1 m ρ c (Proc.devRef .tc main_arg0)) (W1 m ρ c (Proc.devRef .tc main_arg2)) (W1 m ρ c (Proc.devRef .tc main_arg4)) (W1 m ρ c (Proc.devRef .tc main_v23))) = _
    rw [w1_v22 m ρ c, w1_arg0 m ρ c, w1_arg2 m ρ c, w1_arg4 m ρ c, w1_v23 m ρ c, combineRow_asRow]
    rfl))

theorem w2_v1 : W2 m ρ c (Proc.devRef .tc main_v1) = srcOf (m ((c : Thread nD τ).loc main_arg1)) := (W2_of_ne m ρ c main_v1 (by decide)).trans (w1_v1 m ρ c)
theorem w2_v3 : W2 m ρ c (Proc.devRef .tc main_v3) = dstOf (m ((c : Thread nD τ).loc main_arg1)) := (W2_of_ne m ρ c main_v3 (by decide)).trans (w1_v3 m ρ c)

/-! ## The second layer -/

theorem w3_v43 : W3 m ρ c (Proc.devRef .tc main_v43) = agg (layer1 (m ((c : Thread nD τ).loc main_arg0)) (m ((c : Thread nD τ).loc main_arg1)) (m ((c : Thread nD τ).loc main_arg2)) (m ((c : Thread nD τ).loc main_arg4)) (m ((c : Thread nD τ).loc main_arg3))) (srcOf (m ((c : Thread nD τ).loc main_arg1))) (dstOf (m ((c : Thread nD τ).loc main_arg1))) :=
  (Fold.agg1 (W2 m ρ c)).trans (by rw [w2_v24 m ρ c, w2_v1 m ρ c, w2_v3 m ρ c])
theorem w3_v24 : W3 m ρ c (Proc.devRef .tc main_v24) = layer1 (m ((c : Thread nD τ).loc main_arg0)) (m ((c : Thread nD τ).loc main_arg1)) (m ((c : Thread nD τ).loc main_arg2)) (m ((c : Thread nD τ).loc main_arg4)) (m ((c : Thread nD τ).loc main_arg3)) := (Fold.keeps1_main_v24 (W2 m ρ c)).trans (w2_v24 m ρ c)
theorem w3_v44 : W3 m ρ c (Proc.devRef .tc main_v44) = shapeCast S1x512 (m ((c : Thread nD τ).loc main_arg6)) Facts₀.shapeCasts_S512_S1x512 :=
  (Fold.bias1 (W2 m ρ c)).trans (by rw [w2_arg6 m ρ c])

/-- Region 1 leaves the second layer's output. -/
theorem w4_v45 : W4 m ρ c (Proc.devRef .tc main_v45) = layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6)) :=
  (W4_arr m ρ c 5).trans ((Region1.value (V3 m ρ) c).trans (by
    show combineRow (W3 m ρ c (Proc.devRef .tc main_v43)) (W3 m ρ c (Proc.devRef .tc main_v24)) (W3 m ρ c (Proc.devRef .tc main_arg5)) (W3 m ρ c (Proc.devRef .tc main_arg7)) (W3 m ρ c (Proc.devRef .tc main_v44)) = _
    rw [w3_v43 m ρ c, w3_v24 m ρ c, w3_arg5 m ρ c, w3_arg7 m ρ c, w3_v44 m ρ c, combineRow_asRow]
    rfl))

/-! ## The heads -/

theorem w5_v45 : W5 m ρ c (Proc.devRef .tc main_v45) = layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6)) := (Fold.keeps2_main_v45 (W4 m ρ c)).trans (w4_v45 m ρ c)
theorem w5_v46 : W5 m ρ c (Proc.devRef .tc main_v46) = shapeCast S1x512 (m ((c : Thread nD τ).loc main_arg9)) Facts₀.shapeCasts_S512_S1x512 :=
  (Fold.bias2v (W4 m ρ c)).trans (by rw [w4_arg9 m ρ c])
theorem w5_v47 : W5 m ρ c (Proc.devRef .tc main_v47) = shapeCast S1x512 (m ((c : Thread nD τ).loc main_arg11)) Facts₀.shapeCasts_S512_S1x512 :=
  (Fold.bias2t (W4 m ρ c)).trans (by rw [w4_arg11 m ρ c])

/-- RESULT 0: the second layer's output, which region 2 only reads. -/
theorem out0 : W6 m ρ c (Proc.devRef .tc main_v45) = layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6)) :=
  (W6_arr m ρ c 0).trans ((((dat2 (V5 m ρ) c).arrAt_in 0 rfl _).trans (A_eq2 (V5 m ρ) c 0)).trans (w5_v45 m ρ c))

/-- RESULT 1: the first head. -/
theorem out1 : W6 m ρ c (Proc.devRef .tc main_v48_0) = headOf (layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg8)) (m ((c : Thread nD τ).loc main_arg9)) :=
  (W6_arr m ρ c 5).trans ((Region2.value5 (V5 m ρ) c).trans (by
    show clampZero (affineRow (W5 m ρ c (Proc.devRef .tc main_v45)) (W5 m ρ c (Proc.devRef .tc main_arg8)) (W5 m ρ c (Proc.devRef .tc main_v46))) = _
    rw [w5_v45 m ρ c, w5_arg8 m ρ c, w5_v46 m ρ c, affineRow_asRow]
    rfl))

/-- RESULT 2: the second head. -/
theorem out2 : W6 m ρ c (Proc.devRef .tc main_v48_1) = headOf (layer2 (layer1 (m ((c : Thread nD τ).loc main_arg0)) (m ((c : Thread nD τ).loc main_arg1)) (m ((c : Thread nD τ).loc main_arg2)) (m ((c : Thread nD τ).loc main_arg4)) (m ((c : Thread nD τ).loc main_arg3))) (m ((c : Thread nD τ).loc main_arg1)) (m ((c : Thread nD τ).loc main_arg5)) (m ((c : Thread nD τ).loc main_arg7)) (m ((c : Thread nD τ).loc main_arg6))) (m ((c : Thread nD τ).loc main_arg10)) (m ((c : Thread nD τ).loc main_arg11)) :=
  (W6_arr m ρ c 6).trans ((Region2.value6 (V5 m ρ) c).trans (by
    show clampZero (affineRow (W5 m ρ c (Proc.devRef .tc main_v45)) (W5 m ρ c (Proc.devRef .tc main_arg10)) (W5 m ρ c (Proc.devRef .tc main_v47))) = _
    rw [w5_v45 m ρ c, w5_arg10 m ρ c, w5_v47 m ρ c, affineRow_asRow]
    rfl))

end Cert.Sage.KernelValue

end
-- ==== Proof.RefValue.lean ====
/-
  The reference program's three results are the specification's three functions.

  The reference computes, stage by stage: the mean aggregate of the node rows, one product with a weight
  matrix plus a bias, a second product of the node's own rows, their sum, and a clamp at zero; the same
  again over the clamped rows without the clamp; and two heads, each one product plus a bias, clamped.
  Read at an index, each stage is the textbook expression over its operands. The only regrouping needed is
  that the reference adds the bias before the second product and the specification after it.
-/
import proofs.«101803_j29712583754274_1_alg».proof.Proof.Gen.ReferenceIdeal.Read
import proofs.«101803_j29712583754274_1_alg».proof.Proof.Spec

noncomputable section

namespace Cert.Sage.RefValue

open Idealize.ShloMosaic Cert.KernelIdeal
open Cert.ReferenceIdeal.Read

/-! ## The two endpoint vectors and the mean aggregate -/

/-- The reference's source vector is row `0` of the edge table. -/
theorem src1 (x1 : IVec S2x500000 32) : val_main_v1 (F := Ideal) x1 = srcOf x1 := rfl

/-- The reference's destination vector is row `1` of the edge table. -/
theorem dst3 (x1 : IVec S2x500000 32) : val_main_v3 (F := Ideal) x1 = dstOf x1 := rfl

/-- The first aggregation is `agg` of the input rows: the same operations applied to the same operands. -/
theorem agg22 (x0 : FVec Ideal S50000x512 .f32) (x1 : IVec S2x500000 32) :
    val_main_v22 (F := Ideal) x0 x1 = agg x0 (srcOf x1) (dstOf x1) := by
  unfold val_main_v22 val_main_v21 val_main_v20 val_main_v19 val_main_v18 val_main_cst_3 val_main_v17 val_main_v16
    val_main_v15 val_main_cst_2 val_main_v14 val_main_cst_1 val_main_v13 val_main_v12 val_main_v11 val_main_cst
    val_main_v10 val_main_v9 val_main_v8 val_main_v7 val_main_v6 val_main_c_0 val_main_v5 val_main_v4 val_main_c
  rw [src1, dst3]
  rfl

/-- The second aggregation is `agg` of the first layer's rows. -/
theorem agg48 (x0 : FVec Ideal S50000x512 .f32) (x1 : IVec S2x500000 32) (x2 : FVec Ideal S512x512 .f32)
    (x3 : FVec Ideal S512 .f32) (x4 : FVec Ideal S512x512 .f32) :
    val_main_v48 (F := Ideal) x0 x1 x2 x3 x4
      = agg (val_main_v29 (F := Ideal) x0 x1 x2 x3 x4) (srcOf x1) (dstOf x1) := by
  unfold val_main_v48 val_main_v47 val_main_v46 val_main_v45 val_main_v44 val_main_cst_9 val_main_v43 val_main_v42
    val_main_v41 val_main_cst_8 val_main_v40 val_main_cst_7 val_main_v39 val_main_v38 val_main_v37 val_main_cst_6
    val_main_v36 val_main_v35 val_main_v34 val_main_v33 val_main_v32 val_main_c_5 val_main_v31 val_main_v30 val_main_c_4
  generalize val_main_v29 (F := Ideal) x0 x1 x2 x3 x4 = h
  rw [src1, dst3]
  rfl

/-! ## The first layer -/

/-- The clamped first layer: `(A·Wl + bl) + x·Wr` regrouped as `(A·Wl + x·Wr) + bl`. -/
theorem h1 (x0 : FVec Ideal S50000x512 .f32) (x1 : IVec S2x500000 32) (x2 : FVec Ideal S512x512 .f32)
    (x3 : FVec Ideal S512 .f32) (x4 : FVec Ideal S512x512 .f32) :
    val_main_v29 (F := Ideal) x0 x1 x2 x3 x4 = layer1 x0 x1 x2 x4 x3 := by
  funext i
  rw [val_main_v29_apply, val_main_v28_apply, val_main_v26_apply, val_main_v23_apply, val_main_v25_apply,
    val_main_v24_apply, val_main_v27_apply, val_main_call0_v0_apply, val_main_call0_cst_apply, agg22]
  exact congrArg (fun t => max t (Ideal.ofBits .f32 0x00000000#32)) (add_swap _ _ _)

/-! ## The second layer: result 0 -/

theorem out0 (x0 : FVec Ideal S50000x512 .f32) (x1 : IVec S2x500000 32) (x2 : FVec Ideal S512x512 .f32)
    (x3 : FVec Ideal S512 .f32) (x4 x5 : FVec Ideal S512x512 .f32) (x6 : FVec Ideal S512 .f32)
    (x7 : FVec Ideal S512x512 .f32) :
    Cert.ReferenceIdeal.Read.val_main_v54 (F := Ideal) x0 x1 x2 x3 x4 x5 x6 x7
      = layer2 (layer1 x0 x1 x2 x4 x3) x1 x5 x7 x6 := by
  funext i
  rw [val_main_v54_apply, val_main_v52_apply, val_main_v49_apply, val_main_v51_apply, val_main_v50_apply,
    val_main_v53_apply, agg48, h1]
  exact add_swap _ _ _

/-! ## The two heads: results 1 and 2 -/

theorem out1 (x0 : FVec Ideal S50000x512 .f32) (x1 : IVec S2x500000 32) (x2 : FVec Ideal S512x512 .f32)
    (x3 : FVec Ideal S512 .f32) (x4 x5 : FVec Ideal S512x512 .f32) (x6 : FVec Ideal S512 .f32)
    (x7 x8 : FVec Ideal S512x512 .f32) (x9 : FVec Ideal S512 .f32) :
    Cert.ReferenceIdeal.Read.val_main_v59 (F := Ideal) x0 x1 x2 x3 x4 x5 x6 x7 x8 x9
      = headOf (layer2 (layer1 x0 x1 x2 x4 x3) x1 x5 x7 x6) x8 x9 := by
  funext i
  rw [val_main_v59_apply, val_main_v58_apply, val_main_v55_apply, val_main_v57_apply, val_main_v56_apply,
    val_main_call1_v0_apply, val_main_call1_cst_apply, out0]
  rfl

theorem out2 (x0 : FVec Ideal S50000x512 .f32) (x1 : IVec S2x500000 32) (x2 : FVec Ideal S512x512 .f32)
    (x3 : FVec Ideal S512 .f32) (x4 x5 : FVec Ideal S512x512 .f32) (x6 : FVec Ideal S512 .f32)
    (x7 x10 : FVec Ideal S512x512 .f32) (x11 : FVec Ideal S512 .f32) :
    Cert.ReferenceIdeal.Read.val_main_v64 (F := Ideal) x0 x1 x2 x3 x4 x5 x6 x7 x10 x11
      = headOf (layer2 (layer1 x0 x1 x2 x4 x3) x1 x5 x7 x6) x10 x11 := by
  funext i
  rw [val_main_v64_apply, val_main_v63_apply, val_main_v60_apply, val_main_v62_apply, val_main_v61_apply,
    val_main_call2_v0_apply, val_main_call2_cst_apply, out0]
  rfl

end Cert.Sage.RefValue

end
-- ==== Proof.lean ====
/-
  Two graph layers and two heads: the tiled kernels against the plain reference, on the extended reals.

  Both programs aggregate each node's incoming neighbour rows by their mean with the same host operations, then
  combine the aggregate `a` and the node's own row `b` as `a · Wl + b · Wr + bias`. The kernel program does the
  combination in a kernel over 50 tiles of 1000 rows, adding the two products first and the bias last; the reference
  adds the bias to the first product and then the second product. On the extended reals addition is commutative
  and associative outright, so the two agree entry by entry (`Cert.Sage.add_swap`), with no appeal to finiteness:
  the precondition is never opened. A change of float format is the identity there, a tile product into a zero
  accumulator and the host's `dot_general` are the same sum over the contracted axis, and the 50 row blocks tile the
  array, so each kernel region leaves one whole-array function of what it was entered with.

  `Cert.Sage` (Proof/Spec.lean) states the three results once: `layer2 (layer1 …) …` and the two `headOf`s of it.
  Proof/KernelValue.lean shows the kernel program's result buffers end at them (Proof/KernelRun.lean is its run with the
  results named, Proof/Region0…2.lean each region's whole-array value, Proof/Fold.lean the host stretches between them);
  Proof/RefValue.lean shows the reference's stages are the same functions of the arguments. The kernel programs' frames
  are the frame certificates of Proof/Patched/, the reference's frame is its generated run with the results dropped, and
  no operation was rewritten by the idealization, so `preserves` is `True`.
-/
import proofs.«101803_j29712583754274_1_alg».proof.Defs
import proofs.«101803_j29712583754274_1_alg».proof.Proof.Gen.Kernel
import proofs.«101803_j29712583754274_1_alg».proof.Proof.Gen.KernelIdeal
import proofs.«101803_j29712583754274_1_alg».proof.Proof.Gen.ReferenceIdeal
import proofs.«101803_j29712583754274_1_alg».proof.Proof.Gen.Pre_finite_inputs
import proofs.«101803_j29712583754274_1_alg».proof.Proof.Gen.ReferenceIdeal.Run
import proofs.«101803_j29712583754274_1_alg».proof.Proof.Gen.ReferenceIdeal.Read
import proofs.«101803_j29712583754274_1_alg».proof.Proof.Patched.KernelFrame
import proofs.«101803_j29712583754274_1_alg».proof.Proof.Patched.KernelIdealFrame
import proofs.«101803_j29712583754274_1_alg».proof.Proof.KernelRun
import proofs.«101803_j29712583754274_1_alg».proof.Proof.KernelValue
import proofs.«101803_j29712583754274_1_alg».proof.Proof.RefValue
import Idealize.ShloMosaic.Adequacy
import Idealize.ShloMosaic.Init

noncomputable section

namespace Cert.Proof

open Idealize.ShloMosaic Idealize.SL.Sem Cert.Sage

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Result 0 as a function of the kernel program's launch memory: the second layer's output. -/
def res0 (m : (ℓ : Loc Cert.KernelIdeal.nD Cert.KernelIdeal.τ Cert.KernelIdeal.sig) → Buf (Elt Ideal) ℓ) (c : Dev Cert.KernelIdeal.nD) : FVec Ideal Cert.KernelIdeal.S50000x512 .f32 :=
  layer2 (layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6))

/-- Result 1: the first head of it. -/
def res1 (m : (ℓ : Loc Cert.KernelIdeal.nD Cert.KernelIdeal.τ Cert.KernelIdeal.sig) → Buf (Elt Ideal) ℓ) (c : Dev Cert.KernelIdeal.nD) : FVec Ideal Cert.KernelIdeal.S50000x512 .f32 :=
  headOf (res0 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- Result 2: the second head of it. -/
def res2 (m : (ℓ : Loc Cert.KernelIdeal.nD Cert.KernelIdeal.τ Cert.KernelIdeal.sig) → Buf (Elt Ideal) ℓ) (c : Dev Cert.KernelIdeal.nD) : FVec Ideal Cert.KernelIdeal.S50000x512 .f32 :=
  headOf (res0 m c) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- The reference's result 0, from a memory agreeing with the kernel program's on the arguments, is `res0` of the
    kernel program's memory. -/
theorem ref0 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v54 (F := Ideal) m' c = res0 m c := by
  obtain ⟨e0, e1, e2, e3, e4, e5, e6, e7, e8, e9, e10, e11⟩ := hag
  rw [Cert.ReferenceIdeal.Read.val_main_v54_eq, e0, e1, e2, e3, e4, e5, e6, e7]
  exact Cert.Sage.RefValue.out0 _ _ _ _ _ _ _ _

/-- The reference's result 1, from a memory agreeing with the kernel program's on the arguments, is `res1` of the
    kernel program's memory. -/
theorem ref1 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v59 (F := Ideal) m' c = res1 m c := by
  obtain ⟨e0, e1, e2, e3, e4, e5, e6, e7, e8, e9, e10, e11⟩ := hag
  rw [Cert.ReferenceIdeal.Read.val_main_v59_eq, e0, e1, e2, e3, e4, e5, e6, e7, e8, e9]
  exact Cert.Sage.RefValue.out1 _ _ _ _ _ _ _ _ _ _

/-- The reference's result 2, from a memory agreeing with the kernel program's on the arguments, is `res2` of the
    kernel program's memory. -/
theorem ref2 (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v64 (F := Ideal) m' c = res2 m c := by
  obtain ⟨e0, e1, e2, e3, e4, e5, e6, e7, e8, e9, e10, e11⟩ := hag
  rw [Cert.ReferenceIdeal.Read.val_main_v64_eq, e0, e1, e2, e3, e4, e5, e6, e7, e10, e11]
  exact Cert.Sage.RefValue.out2 _ _ _ _ _ _ _ _ _ _

/-- From memories agreeing on the arguments both programs end at the same three arrays: the second layer's output and
    the two heads of it, as functions of the arguments. -/
theorem algebraic : Cert.algebraic_KernelIdeal_ReferenceIdeal := by
  intro m ρ m' ρ' _ hagree
  refine ⟨res0 m, res1 m, res2 m, ?_, ?_⟩
  · refine (θ_run Cert.KernelIdeal.defs _ _).mono (fun r h c => ?_) (Cert.Sage.KernelRun.run_results (F := Ideal) m ρ)
    obtain ⟨h0, h1, h2, hargs⟩ := h c
    exact ⟨h0.trans (Cert.Sage.KernelValue.out0 m ρ c), h1.trans (Cert.Sage.KernelValue.out1 m ρ c),
      h2.trans (Cert.Sage.KernelValue.out2 m ρ c), hargs⟩
  · refine (θ_run Cert.ReferenceIdeal.defs _ _).mono (fun r h c => ?_) (Cert.ReferenceIdeal.Value.run (F := Ideal) m' ρ')
    obtain ⟨h0, h1, h2, hargs⟩ := h c
    exact ⟨h0.trans (ref0 m m' c (hagree c)), h1.trans (ref1 m m' c (hagree c)), h2.trans (ref2 m m' c (hagree c)), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
